-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1024 : Shape := ⟨3, ![1024, 64, 1024]⟩
abbrev S1024x128 : Shape := ⟨2, ![1024, 128]⟩
abbrev S128 : Shape := ⟨1, ![128]⟩
abbrev S1024x9 : Shape := ⟨2, ![1024, 9]⟩
abbrev S9 : Shape := ⟨1, ![9]⟩
abbrev S_ : Shape := ⟨0, ![]⟩

class Facts : Prop where
  bcast_S_S1024x64x1024 : S_.BroadcastsInDim S1024x64x1024 (![] : Fin 0 → Fin S1024x64x1024.rank)
  reducesTo_S1024x64x1024_S_d0_1_2 : S1024x64x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x9 : S_.BroadcastsInDim S1024x9 (![] : Fin 0 → Fin S1024x9.rank)
  reducesTo_S1024x9_S_d0_1 : S1024x9.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S128 .f32) (main_arg5 : FVec F S1024x9 .f32) (main_arg6 : FVec F S9 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x9 .f32 := Host.absf main_arg5
  let main_cst_8 : FVec F S_ .f32 := constant S_ .f32 0x7F800000#32
  let main_v25 : FVec F S1024x9 .f32 := broadcastInDim S1024x9 ![] bcast_S_S1024x9 main_cst_8
  let main_v26 : IVec S1024x9 1 := cmpf .olt main_v24 main_v25
  let main_c_9 : IVec S_ 1 := constantI S_ 1 1#1
  let main_v27 : IVec S_ 1 := (fun x v => Host.reduce IntOp.andi x v reducesTo_S1024x9_S_d0_1 h_S_) main_v26 main_c_9
  let main_v28 : IVec S_ 1 := andi main_v23 main_v27
  let main_v29 : FVec F S9 .f32 := Host.absf main_arg6
  let main_cst_10 : FVec F S_ .f32 := constant S_ .f32 0x7F800000#32
  let main_v30 : FVec F S9 .f32 := broadcastInDim S9 ![] bcast_S_S9 main_cst_10
  let main_v31 : IVec S9 1 := cmpf .olt main_v29 main_v30
  let main_c_11 : IVec S_ 1 := constantI S_ 1 1#1
  let main_v32 : IVec S_ 1 := (fun x v => Host.reduce IntOp.andi x v reducesTo_S9_S_d0 h_S_) main_v31 main_c_11
  let main_v33 : IVec S_ 1 := andi main_v28 main_v32
  main_v33

def fn {F : FTy → Type} [FloatOps F] (main_arg0 : FVec F S1024x64x1024 .f32) (main_arg1 : FVec F S1024x128 .f32) (main_arg2 : FVec F S128 .f32) (main_arg3 : FVec F S1024x128 .f32) (main_arg4 : FVec F S128 .f32) (main_arg5 : FVec F S1024x9 .f32) (main_arg6 : FVec F S9 .f32) : IVec S_ 1 :=
  let main_v0 : FVec F S1024x64x1024 .f32 := Host.absf main_arg0
  let main_cst : FVec F S_ .f32 := constant S_ .f32 0x7F800000#32
  let main_v1 : FVec F S1024x64x1024 .f32 := broadcastInDim S1024x64x1024 ![] bcast_S_S1024x64x1024 main_cst
  let main_v2 : IVec S1024x64x1024 1 := cmpf .olt main_v0 main_v1
  let main_c : IVec S_ 1 := constantI S_ 1 1#1
  let main_v3 : IVec S_ 1 := (fun x v => Host.reduce IntOp.andi x v reducesTo_S1024x64x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_v13 main_v16
-- ==== Kernel.lean ====
abbrev S1024x64x1024 : Shape := ⟨3, ![1024, 64, 1024]⟩
abbrev S1024x128 : Shape := ⟨2, ![1024, 128]⟩
abbrev S128 : Shape := ⟨1, ![128]⟩
abbrev S1024x9 : Shape := ⟨2, ![1024, 9]⟩
abbrev S9 : Shape := ⟨1, ![9]⟩
abbrev S64x64 : Shape := ⟨2, ![64, 64]⟩
abbrev S64 : Shape := ⟨1, ![64]⟩
abbrev S_ : Shape := ⟨0, ![]⟩
abbrev S1024x384 : Shape := ⟨2, ![1024, 384]⟩
abbrev S384 : Shape := ⟨1, ![384]⟩
abbrev S1x384 : Shape := ⟨2, ![1, 384]⟩
abbrev S1024x64x64 : Shape := ⟨3, ![1024, 64, 64]⟩
abbrev S1024x64x128 : Shape := ⟨3, ![1024, 64, 128]⟩
abbrev S32x64x1024 : Shape := ⟨3, ![32, 64, 1024]⟩
abbrev S32x64x64 : Shape := ⟨3, ![32, 64, 64]⟩
abbrev S32x64x128 : Shape := ⟨3, ![32, 64, 128]⟩
abbrev S2048x1024 : Shape := ⟨2, ![2048, 1024]⟩
abbrev S2048x384 : Shape := ⟨2, ![2048, 384]⟩
abbrev S32x64x384 : Shape := ⟨3, ![32, 64, 384]⟩
abbrev S1x64x64 : Shape := ⟨3, ![1, 64, 64]⟩
abbrev S1024x64x64x1 : Shape := ⟨4, ![1024, 64, 64, 1]⟩
abbrev S1 : Shape := ⟨1, ![1]⟩
abbrev S1x1x1x1 : Shape := ⟨4, ![1, 1, 1, 1]⟩
abbrev S1024x64x9 : Shape := ⟨3, ![1024, 64, 9]⟩
abbrev S1x64x1 : Shape := ⟨3, ![1, 64, 1]⟩
abbrev S1024x64x73 : Shape := ⟨3, ![1024, 64, 73]⟩
abbrev S1024x4672 : Shape := ⟨2, ![1024, 4672]⟩

abbrev nBuf : Space → Nat
  | .hbm => 58
  | .vmem => 8
  | .smem => 0
  | _ => 0

abbrev bufTy : (tb : Table) → Fin (tcTables nBuf tb) → BufTy
  | .hbm, ⟨0, _⟩ => ⟨S1024x64x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x9, .f32⟩
  | .hbm, ⟨6, _⟩ => ⟨S9, .f32⟩
  | .hbm, ⟨7, _⟩ => ⟨S64x64, .i32⟩
  | .hbm, ⟨8, _⟩ => ⟨S64x64, .i1⟩
  | .hbm, ⟨9, _⟩ => ⟨S64, .i1⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1024x384, .f32⟩
  | .hbm, ⟨17, _⟩ => ⟨S384, .f32⟩
  | .hbm, ⟨18, _⟩ => ⟨S1x384, .f32⟩
  | .hbm, ⟨19, _⟩ => ⟨S1024x64x64, .f32⟩
  | .hbm, ⟨20, _⟩ => ⟨S1024x64x128, .f32⟩
  | .hbm, ⟨21, _⟩ => ⟨S1x64x64, .i32⟩
  | .hbm, ⟨22, _⟩ => ⟨S1024x64x64, .i32⟩
  | .hbm, ⟨23, _⟩ => ⟨S_, .i32⟩
  | .hbm, ⟨24, _⟩ => ⟨S1024x64x64, .i32⟩
  | .hbm, ⟨25, _⟩ => ⟨S1024x64x64, .i1⟩
  | .hbm, ⟨26, _⟩ => ⟨S_, .i32⟩
  | .hbm, ⟨27, _⟩ => ⟨S1024x64x64, .i32⟩
  | .hbm, ⟨28, _⟩ => ⟨S1024x64x64, .i32⟩
  | .hbm, ⟨29, _⟩ => ⟨S1024x64x64, .i32⟩
  | .hbm, ⟨30, _⟩ => ⟨S1024x64x64x1, .i32⟩
  | .hbm, ⟨31, _⟩ => ⟨S1, .i32⟩
  | .hbm, ⟨32, _⟩ => ⟨S_, .i32⟩
  | .hbm, ⟨33, _⟩ => ⟨S1024x64x64x1, .i32⟩
  | .hbm, ⟨34, _⟩ => ⟨S1024x64x64x1, .i1⟩
  | .hbm, ⟨35, _⟩ => ⟨S1x1x1x1, .i32⟩
  | .hbm, ⟨36, _⟩ => ⟨S1024x64x64x1, .i32⟩
  | .hbm, ⟨37, _⟩ => ⟨S1024x64x64x1, .i1⟩
  | .hbm, ⟨38, _⟩ => ⟨S1024x64x64x1, .i1⟩
  | .hbm, ⟨39, _⟩ => ⟨S_, .i1⟩
  | .hbm, ⟨40, _⟩ => ⟨S1024x64x64, .i1⟩
  | .hbm, ⟨41, _⟩ => ⟨S1024x64x64, .f32⟩
  | .hbm, ⟨42, _⟩ => ⟨S_, .f32⟩
  | .hbm, ⟨43, _⟩ => ⟨S1024x64x64, .f32⟩
  | .hbm, ⟨44, _⟩ => ⟨S1024x64x64, .f32⟩
  | .hbm, ⟨45, _⟩ => ⟨S1x64x64, .i1⟩
  | .hbm, ⟨46, _⟩ => ⟨S_, .f32⟩
  | .hbm, ⟨47, _⟩ => ⟨S1024x64x64, .i1⟩
  | .hbm, ⟨48, _⟩ => ⟨S1024x64x64, .f32⟩
  | .hbm, ⟨49, _⟩ => ⟨S1024x64x64, .f32⟩
  | .hbm, ⟨50, _⟩ => ⟨S1024x64x9, .f32⟩
  | .hbm, ⟨51, _⟩ => ⟨S1x64x1, .i1⟩
  | .hbm, ⟨52, _⟩ => ⟨S_, .f32⟩
  | .hbm, ⟨53, _⟩ => ⟨S1024x64x9, .i1⟩
  | .hbm, ⟨54, _⟩ => ⟨S1024x64x9, .f32⟩
  | .hbm, ⟨55, _⟩ => ⟨S1024x64x9, .f32⟩
  | .hbm, ⟨56, _⟩ => ⟨S1024x64x73, .f32⟩
  | .hbm, ⟨57, _⟩ => ⟨S1024x4672, .f32⟩
  | .local _ .vmem, ⟨0, _⟩ => ⟨S32x64x1024, .f32⟩
  | .local _ .vmem, ⟨1, _⟩ => ⟨S32x64x1024, .f32⟩
  | .local _ .vmem, ⟨2, _⟩ => ⟨S1024x384, .f32⟩
  | .local _ .vmem, ⟨3, _⟩ => ⟨S1x384, .f32⟩
  | .local _ .vmem, ⟨4, _⟩ => ⟨S32x64x64, .f32⟩
  | .local _ .vmem, ⟨5, _⟩ => ⟨S32x64x64, .f32⟩
  | .local _ .vmem, ⟨6, _⟩ => ⟨S32x64x128, .f32⟩
  | .local _ .vmem, ⟨7, _⟩ => ⟨S32x64x128, .f32⟩
  | _, _ => ⟨S1024x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_call0_v0 : Ref sig .tc := ⟨.hbm, 11, rfl⟩
abbrev main_v0 : Ref sig .tc := ⟨.hbm, 12, rfl⟩
abbrev main_c_3 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v6 : Ref sig .tc := ⟨.hbm, 21, rfl⟩
abbrev main_v7 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_cst : Ref sig .tc := ⟨.hbm, 42, rfl⟩
abbrev main_call2_v14 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_call3_v0 : Ref sig .tc := ⟨.hbm, 47, rfl⟩
abbrev main_call3_v1 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_cst_4 : Ref sig .tc := ⟨.hbm, 52, rfl⟩
abbrev main_call4_v0 : Ref sig .tc := ⟨.hbm, 53, rfl⟩
abbrev main_call4_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S1024x9_S1024x128_000_01190 : S1024x9.Pads (![0, 0] : Fin 2 → Nat) ![0, 119] ![0, 0] S1024x128
  h_S_ : 0 < S_.numel
  pads_S9_S128_01190 : S9.Pads (![0] : Fin 1 → Nat) ![119] ![0] S128
  concatenates_S1024x128_S1024x128_S1024x128_S1024x384_d1 : Shape.Concatenates [S1024x128, S1024x128, S1024x128] S1024x384 1
  concatenates_S128_S128_S128_S384_d0 : Shape.Concatenates [S128, S128, S128] S384 0
  shapeCasts_S384_S1x384 : S384.ShapeCasts S1x384
  inb_S32x64x1024_S32x64x1024_0_0_0 : ∀ a, (![0, 0, 0] : Fin 3 → Nat) a + S32x64x1024.size a ≤ S32x64x1024.size a
  h_S32x64x1024 : 0 < S32x64x1024.numel
  bitsLt_bf16_f32 : FTy.bits .bf16 < FTy.bits .f32
  shapeCasts_S32x64x1024_S2048x1024 : S32x64x1024.ShapeCasts S2048x1024
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  shapeCasts_S2048x384_S32x64x384 : S2048x384.ShapeCasts S32x64x384
  slices_S32x64x384_o0_0_0_S32x64x128 : S32x64x384.Slices ![0, 0, 0] S32x64x128
  slices_S32x64x384_o0_0_128_S32x64x128 : S32x64x384.Slices ![0, 0, 128] S32x64x128
  slices_S32x64x384_o0_0_256_S32x64x128 : S32x64x384.Slices ![0, 0, 256] S32x64x128
  inb_S32x64x64_S32x64x64_0_0_0 : ∀ a, (![0, 0, 0] : Fin 3 → Nat) a + S32x64x64.size a ≤ S32x64x64.size a
  h_S32x64x64 : 0 < S32x64x64.numel
  inb_S32x64x128_S32x64x128_0_0_0 : ∀ a, (![0, 0, 0] : Fin 3 → Nat) a + S32x64x128.size a ≤ S32x64x128.size a
  h_S32x64x128 : 0 < S32x64x128.numel
  bcast_S64x64_S1x64x64_1_2 : S64x64.BroadcastsInDim S1x64x64 (![1, 2] : Fin 2 → Fin S1x64x64.rank)
  bcast_S1x64x64_S1024x64x64_0_1_2 : S1x64x64.BroadcastsInDim S1024x64x64 (![0, 1, 2] : Fin 3 → Fin S1024x64x64.rank)
  bcast_S_S1024x64x64 : S_.BroadcastsInDim S1024x64x64 (![] : Fin 0 → Fin S1024x64x64.rank)
  shapeCasts_S1024x64x64_S1024x64x64x1 : S1024x64x64.ShapeCasts S1024x64x64x1
  bcast_S_S1024x64x64x1 : S_.BroadcastsInDim S1024x64x64x1 (![] : Fin 0 → Fin S1024x64x64x1.rank)
  bcast_S1_S1x1x1x1_3 : S1.BroadcastsInDim S1x1x1x1 (![3] : Fin 1 → Fin S1x1x1x1.rank)
  bcast_S1x1x1x1_S1024x64x64x1_0_1_2_3 : S1x1x1x1.BroadcastsInDim S1024x64x64x1 (![0, 1, 2, 3] : Fin 4 → Fin S1024x64x64x1.rank)
  reducesTo_S1024x64x64x1_S1024x64x64_d3 : S1024x64x64x1.ReducesTo [3] S1024x64x64
  slices_S1024x64x128_S1024x64x9_0_0_0 : S1024x64x128.Slices ![0, 0, 0] S1024x64x9
  bcast_S64_S1x64x1_1 : S64.BroadcastsInDim S1x64x1 (![1] : Fin 1 → Fin S1x64x1.rank)
  bcast_S1x64x1_S1024x64x9_0_1_2 : S1x64x1.BroadcastsInDim S1024x64x9 (![0, 1, 2] : Fin 3 → Fin S1024x64x9.rank)
  bcast_S_S1024x64x9 : S_.BroadcastsInDim S1024x64x9 (![] : Fin 0 → Fin S1024x64x9.rank)
  concatenates_S1024x64x64_S1024x64x9_S1024x64x73_d2 : Shape.Concatenates [S1024x64x64, S1024x64x9] S1024x64x73 2
  shapeCasts_S1024x64x73_S1024x4672 : S1024x64x73.ShapeCasts S1024x4672
  dot_S2048x1024_S1024x384_S2048x384_1_0_0_1_n_n_wf : DotDims.WF S2048x1024 S1024x384 S2048x384 [1] [0] [0] [1] [] []
  dot_S32x64x128_S32x64x128_S32x64x64_2_2_1_1_0_0_wf : DotDims.WF S32x64x128 S32x64x128 S32x64x64 [2] [2] [1] [1] [0] [0]
  gather_S1024x64x64_S1024x64x64x1_S1024x64x64_n_2_01_01_2_3_111_wf : GatherDims.WF S1024x64x64 S1024x64x64x1 S1024x64x64 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x1024.size a ≤ S1024x64x1024.size a
  hwx0_0 : ∀ i : grid0.Coords, EltTy.bits .f32 = 32 ∨ (Rect.block (s := S1024x64x1024) S32x64x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x64x64.size a ≤ S1024x64x64.size a
  hwx0_3 : ∀ i : grid0.Coords, EltTy.bits .f32 = 32 ∨ (Rect.block (s := S1024x64x64) S32x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x64x128.size a ≤ S1024x64x128.size a
  hwx0_4 : ∀ i : grid0.Coords, EltTy.bits .f32 = 32 ∨ (Rect.block (s := S1024x64x128) S32x64x128.size (cc0_transform_4 i) (hinb0_4 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S32x64x128_S32x64x128_S32x64x64_2_2_1_1_0_0 : DotDims S32x64x128 S32x64x128 S32x64x64 where
  lhsContracting := [2]
  rhsContracting := [2]
  lhsNonContracting := [1]
  rhsNonContracting := [1]
  lhsBatch := [0]
  rhsBatch := [0]
  wf := dot_S32x64x128_S32x64x128_S32x64x64_2_2_1_1_0_0_wf
def gather_S1024x64x64_S1024x64x64x1_S1024x64x64_n_2_01_01_2_3_111 : GatherDims S1024x64x64 S1024x64x64x1 S1024x64x64 where
  offsetDims := []
  collapsedSliceDims := [2]
  operandBatchingDims := [0, 1]
  startIndicesBatchingDims := [0, 1]
  startIndexMap := [2]
  indexVectorDim := 3
  sliceSizes := ![1, 1, 1]
  wf := gather_S1024x64x64_S1024x64x64x1_S1024x64x64_n_2_01_01_2_3_111_wf

abbrev win0_0 : Pipeline.Window sig grid0 :=
  Pipeline.Window.ofSpec (Memref.whole main_arg0) S32x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S32x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S32x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x64x1024 : Shape := ⟨3, ![1024, 64, 1024]⟩
abbrev S1024x128 : Shape := ⟨2, ![1024, 128]⟩
abbrev S128 : Shape := ⟨1, ![128]⟩
abbrev S1024x9 : Shape := ⟨2, ![1024, 9]⟩
abbrev S9 : Shape := ⟨1, ![9]⟩
abbrev S64x64 : Shape := ⟨2, ![64, 64]⟩
abbrev S64 : Shape := ⟨1, ![64]⟩
abbrev S1024x64x128 : Shape := ⟨3, ![1024, 64, 128]⟩
abbrev S1x1x128 : Shape := ⟨3, ![1, 1, 128]⟩
abbrev S1024x64x64 : Shape := ⟨3, ![1024, 64, 64]⟩
abbrev S_ : Shape := ⟨0, ![]⟩
abbrev S1x64x64 : Shape := ⟨3, ![1, 64, 64]⟩
abbrev S1024x64x64x1 : Shape := ⟨4, ![1024, 64, 64, 1]⟩
abbrev S1 : Shape := ⟨1, ![1]⟩
abbrev S1x1x1x1 : Shape := ⟨4, ![1, 1, 1, 1]⟩
abbrev S1024x64x9 : Shape := ⟨3, ![1024, 64, 9]⟩
abbrev S1x1x9 : Shape := ⟨3, ![1, 1, 9]⟩
abbrev S1x64x1 : Shape := ⟨3, ![1, 64, 1]⟩
abbrev S1024x64x73 : Shape := ⟨3, ![1024, 64, 73]⟩
abbrev S1024x4672 : Shape := ⟨2, ![1024, 4672]⟩

abbrev nBuf : Space → Nat
  | .hbm => 62
  | .vmem => 0
  | .smem => 0
  | _ => 0

abbrev bufTy : (tb : Table) → Fin (tcTables nBuf tb) → BufTy
  | .hbm, ⟨0, _⟩ => ⟨S1024x64x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x9, .f32⟩
  | .hbm, ⟨6, _⟩ => ⟨S9, .f32⟩
  | .hbm, ⟨7, _⟩ => ⟨S64x64, .i32⟩
  | .hbm, ⟨8, _⟩ => ⟨S64x64, .i1⟩
  | .hbm, ⟨9, _⟩ => ⟨S64, .i1⟩
  | .hbm, ⟨10, _⟩ => ⟨S1024x64x128, .f32⟩
  | .hbm, ⟨11, _⟩ => ⟨S1x1x128, .f32⟩
  | .hbm, ⟨12, _⟩ => ⟨S1024x64x128, .f32⟩
  | .hbm, ⟨13, _⟩ => ⟨S1024x64x128, .f32⟩
  | .hbm, ⟨14, _⟩ => ⟨S1024x64x128, .f32⟩
  | .hbm, ⟨15, _⟩ => ⟨S1x1x128, .f32⟩
  | .hbm, ⟨16, _⟩ => ⟨S1024x64x128, .f32⟩
  | .hbm, ⟨17, _⟩ => ⟨S1024x64x128, .f32⟩
  | .hbm, ⟨18, _⟩ => ⟨S1024x64x64, .f32⟩
  | .hbm, ⟨19, _⟩ => ⟨S_, .f32⟩
  | .hbm, ⟨20, _⟩ => ⟨S1024x64x64, .f32⟩
  | .hbm, ⟨21, _⟩ => ⟨S1024x64x64, .f32⟩
  | .hbm, ⟨22, _⟩ => ⟨S1x64x64, .i32⟩
  | .hbm, ⟨23, _⟩ => ⟨S1024x64x64, .i32⟩
  | .hbm, ⟨24, _⟩ => ⟨S_, .i32⟩
  | .hbm, ⟨25, _⟩ => ⟨S1024x64x64, .i32⟩
  | .hbm, ⟨26, _⟩ => ⟨S1024x64x64, .i1⟩
  | .hbm, ⟨27, _⟩ => ⟨S_, .i32⟩
  | .hbm, ⟨28, _⟩ => ⟨S1024x64x64, .i32⟩
  | .hbm, ⟨29, _⟩ => ⟨S1024x64x64, .i32⟩
  | .hbm, ⟨30, _⟩ => ⟨S1024x64x64, .i32⟩
  | .hbm, ⟨31, _⟩ => ⟨S1024x64x64x1, .i32⟩
  | .hbm, ⟨32, _⟩ => ⟨S1, .i32⟩
  | .hbm, ⟨33, _⟩ => ⟨S_, .i32⟩
  | .hbm, ⟨34, _⟩ => ⟨S1024x64x64x1, .i32⟩
  | .hbm, ⟨35, _⟩ => ⟨S1024x64x64x1, .i1⟩
  | .hbm, ⟨36, _⟩ => ⟨S1x1x1x1, .i32⟩
  | .hbm, ⟨37, _⟩ => ⟨S1024x64x64x1, .i32⟩
  | .hbm, ⟨38, _⟩ => ⟨S1024x64x64x1, .i1⟩
  | .hbm, ⟨39, _⟩ => ⟨S1024x64x64x1, .i1⟩
  | .hbm, ⟨40, _⟩ => ⟨S_, .i1⟩
  | .hbm, ⟨41, _⟩ => ⟨S1024x64x64, .i1⟩
  | .hbm, ⟨42, _⟩ => ⟨S1024x64x64, .f32⟩
  | .hbm, ⟨43, _⟩ => ⟨S_, .f32⟩
  | .hbm, ⟨44, _⟩ => ⟨S1024x64x64, .f32⟩
  | .hbm, ⟨45, _⟩ => ⟨S1024x64x64, .f32⟩
  | .hbm, ⟨46, _⟩ => ⟨S1x64x64, .i1⟩
  | .hbm, ⟨47, _⟩ => ⟨S_, .f32⟩
  | .hbm, ⟨48, _⟩ => ⟨S1024x64x64, .i1⟩
  | .hbm, ⟨49, _⟩ => ⟨S1024x64x64, .f32⟩
  | .hbm, ⟨50, _⟩ => ⟨S1024x64x64, .f32⟩
  | .hbm, ⟨51, _⟩ => ⟨S1024x64x9, .f32⟩
  | .hbm, ⟨52, _⟩ => ⟨S1x1x9, .f32⟩
  | .hbm, ⟨53, _⟩ => ⟨S1024x64x9, .f32⟩
  | .hbm, ⟨54, _⟩ => ⟨S1024x64x9, .f32⟩
  | .hbm, ⟨55, _⟩ => ⟨S1x64x1, .i1⟩
  | .hbm, ⟨56, _⟩ => ⟨S_, .f32⟩
  | .hbm, ⟨57, _⟩ => ⟨S1024x64x9, .i1⟩
  | .hbm, ⟨58, _⟩ => ⟨S1024x64x9, .f32⟩
  | .hbm, ⟨59, _⟩ => ⟨S1024x64x9, .f32⟩
  | .hbm, ⟨60, _⟩ => ⟨S1024x64x73, .f32⟩
  | .hbm, ⟨61, _⟩ => ⟨S1024x4672, .f32⟩
  | _, _ => ⟨S1024x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_call2_v0 : Ref sig .tc := ⟨.hbm, 57, rfl⟩
abbrev main_call2_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1024x64x128_0_1_2 : S1x1x128.BroadcastsInDim S1024x64x128 (![0, 1, 2] : Fin 3 → Fin S1024x64x128.rank)
  bcast_S_S1024x64x64 : S_.BroadcastsInDim S1024x64x64 (![] : Fin 0 → Fin S1024x64x64.rank)
  bcast_S64x64_S1x64x64_1_2 : S64x64.BroadcastsInDim S1x64x64 (![1, 2] : Fin 2 → Fin S1x64x64.rank)
  bcast_S1x64x64_S1024x64x64_0_1_2 : S1x64x64.BroadcastsInDim S1024x64x64 (![0, 1, 2] : Fin 3 → Fin S1024x64x64.rank)
  shapeCasts_S1024x64x64_S1024x64x64x1 : S1024x64x64.ShapeCasts S1024x64x64x1
  bcast_S_S1024x64x64x1 : S_.BroadcastsInDim S1024x64x64x1 (![] : Fin 0 → Fin S1024x64x64x1.rank)
  bcast_S1_S1x1x1x1_3 : S1.BroadcastsInDim S1x1x1x1 (![3] : Fin 1 → Fin S1x1x1x1.rank)
  bcast_S1x1x1x1_S1024x64x64x1_0_1_2_3 : S1x1x1x1.BroadcastsInDim S1024x64x64x1 (![0, 1, 2, 3] : Fin 4 → Fin S1024x64x64x1.rank)
  reducesTo_S1024x64x64x1_S1024x64x64_d3 : S1024x64x64x1.ReducesTo [3] S1024x64x64
  h_S_ : 0 < S_.numel
  bcast_S9_S1x1x9_2 : S9.BroadcastsInDim S1x1x9 (![2] : Fin 1 → Fin S1x1x9.rank)
  bcast_S1x1x9_S1024x64x9_0_1_2 : S1x1x9.BroadcastsInDim S1024x64x9 (![0, 1, 2] : Fin 3 → Fin S1024x64x9.rank)
  bcast_S64_S1x64x1_1 : S64.BroadcastsInDim S1x64x1 (![1] : Fin 1 → Fin S1x64x1.rank)
  bcast_S1x64x1_S1024x64x9_0_1_2 : S1x64x1.BroadcastsInDim S1024x64x9 (![0, 1, 2] : Fin 3 → Fin S1024x64x9.rank)
  bcast_S_S1024x64x9 : S_.BroadcastsInDim S1024x64x9 (![] : Fin 0 → Fin S1024x64x9.rank)
  concatenates_S1024x64x64_S1024x64x9_S1024x64x73_d2 : Shape.Concatenates [S1024x64x64, S1024x64x9] S1024x64x73 2
  shapeCasts_S1024x64x73_S1024x4672 : S1024x64x73.ShapeCasts S1024x4672
  dot_S1024x64x1024_S1024x128_S1024x64x128_2_0_01_1_n_n_wf : DotDims.WF S1024x64x1024 S1024x128 S1024x64x128 [2] [0] [0, 1] [1] [] []
  dot_S1024x64x128_S1024x64x128_S1024x64x64_2_2_1_1_0_0_wf : DotDims.WF S1024x64x128 S1024x64x128 S1024x64x64 [2] [2] [1] [1] [0] [0]
  gather_S1024x64x64_S1024x64x64x1_S1024x64x64_n_2_01_01_2_3_111_wf : GatherDims.WF S1024x64x64 S1024x64x64x1 S1024x64x64 [] [2] [0, 1] [2] [0, 1] 3 ![1, 1, 1]
  dot_S1024x64x1024_S1024x9_S1024x64x9_2_0_01_1_n_n_wf : DotDims.WF S1024x64x1024 S1024x9 S1024x64x9 [2] [0] [0, 1] [1] [] []

variable [Facts₀]

def dot_S1024x64x1024_S1024x128_S1024x64x128_2_0_01_1_n_n : DotDims S1024x64x1024 S1024x128 S1024x64x128 where
  lhsContracting := [2]
  rhsContracting := [0]
  lhsNonContracting := [0, 1]
  rhsNonContracting := [1]
  lhsBatch := []
  rhsBatch := []
  wf := dot_S1024x64x1024_S1024x128_S1024x64x128_2_0_01_1_n_n_wf
def dot_S1024x64x128_S1024x64x128_S1024x64x64_2_2_1_1_0_0 : DotDims S1024x64x128 S1024x64x128 S1024x64x64 where
  lhsContracting := [2]
  rhsContracting := [2]
  lhsNonContracting := [1]
  rhsNonContracting := [1]
  lhsBatch := [0]
  rhsBatch := [0]
  wf := dot_S1024x64x128_S1024x64x128_S1024x64x64_2_2_1_1_0_0_wf
def gather_S1024x64x64_S1024x64x64x1_S1024x64x64_n_2_01_01_2_3_111 : GatherDims S1024x64x64 S1024x64x64x1 S1024x64x64 where
  offsetDims := []
  collapsedSliceDims := [2]
  operandBatchingDims := [0, 1]
  startIndicesBatchingDims := [0, 1]
  startIndexMap := [2]
  indexVectorDim := 3
  sliceSizes := ![1, 1, 1]
  wf := gather_S1024x64x64_S1024x64x64x1_S1024x64x64_n_2_01_01_2_3_111_wf
def dot_S1024x64x1024_S1024x9_S1024x64x9_2_0_01_1_n_n : DotDims S1024x64x1024 S1024x9 S1024x64x9 where
  lhsContracting := [2]
  rhsContracting := [0]
  lhsNonContracting := [0, 1]
  rhsNonContracting := [1]
  lhsBatch := []
  rhsBatch := []
  wf := dot_S1024x64x1024_S1024x9_S1024x64x9_2_0_01_1_n_n_wf

class Facts : Prop extends Facts₀ where

variable [Facts]
-- ==== Proof.KFrameB.lean ====
/-
  The run of the kernel's program around its one region, at any float instance.

  @main is: host lines that lay the constants down and build the two operand arrays (the weights side by side, the
  biases end to end), the region, and host lines that gather, mask and join what the region wrote.  The region's grid
  has 32 points; point t stages rows 32t … 32t+31 of the input (a block of [32, 64, 1024]), the whole weight matrix and
  the whole bias row, and writes back block t of each of its two results.  The body at a point loads the three input
  blocks, stores one value into each output block, and touches nothing else, so after the body each input block is
  what it was and each output block is the stored value: that is the proof data below.  Nothing here says what the
  stored values are (they are the skeleton's payloads of the three loaded blocks); the argument arrays are never
  written, which is the frame.
-/
import proofs.«160570_j2216203125394_1_alg».proof.Proof.Gen.Kernel.Launch
import proofs.«160570_j2216203125394_1_alg».proof.Proof.Gen.Kernel.Skeleton
import proofs.«160570_j2216203125394_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core c's buffer contents when the region is entered: the launch memory after the host lines before the region. -/
abbrev V0 (c : Dev nD) : Valuation τ sig (Elt F) :=
  StableHlo.after (List.flatten [hostOps0, hostOps0_1, hostOps0_2, hostOps0_3, hostOps0_4]) (fun b => m (c, b))
/-- The same, read at a reference. -/
abbrev V (c : Dev nD) (b : Ref sig .tc) : Buf (Elt F) ((c : Thread nD τ).loc b) := V0 m c (Proc.devRef .tc b)

/-- No host line allocates a buffer. -/
theorem pre_fresh : ([hostOps0, hostOps0_1, hostOps0_2, hostOps0_3, hostOps0_4] : List (List (HloOp τ sig (Elt F)))).Forall
    fun ops => ops.Forall fun op => op.fresh = ∅ := by
  simp only [List.Forall]; repeat' constructor
theorem post_fresh : ([hostOps1, hostOps1_1, hostOps1_2, hostOps1_3, hostOps1_4, hostOps1_5, hostOps1_6] : List (List (HloOp τ sig (Elt F)))).Forall
    fun ops => ops.Forall fun op => op.fresh = ∅ := by
  simp only [List.Forall]; repeat' constructor

/-- @main is the lines before the region, the region, and the region's continuation by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6]
    (by simp only [List.Forall]; exact ⟨hostOps0_sub, hostOps0_1_sub, hostOps0_2_sub, hostOps0_3_sub, hostOps0_4_sub⟩)
    (by simp only [List.Forall]; exact pre_fresh) main_chain

/-- The lines after the region touch only unscoped buffers of the TensorCore: the region's arrays and the buffers that bypass it. -/
theorem post_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem post_fresh' : ∀ ops ∈ ([hostOps1, hostOps1_1, hostOps1_2, hostOps1_3, hostOps1_4, hostOps1_5, hostOps1_6] : List (List (HloOp τ sig (Elt F)))), ∀ op ∈ ops, op.fresh = ∅ :=
  fun ops hops op hop => (List.forall_iff_forall_mem.mp ((List.forall_iff_forall_mem.mp post_fresh) ops hops)) op hop

/-- None of them writes an array of the region: each writes its own result buffer, and no result of a later line is
    an operand or result of the region. -/
theorem post_keeps : ([hostOps1, hostOps1_1, hostOps1_2, hostOps1_3, hostOps1_4, hostOps1_5, hostOps1_6] : List (List (HloOp τ sig (Elt F)))).Forall fun ops => ops.Forall fun op =>
    ∀ w, Proc.devRef .tc (Pipeline.arrRef spec0 w) ∉ op.writes := by
  simp only [hostOps1, hostOps1_1, hostOps1_2, hostOps1_3, hostOps1_4, hostOps1_5, hostOps1_6, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)

theorem post_keeps' : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes :=
  fun ops hops op hop => (List.forall_iff_forall_mem.mp ((List.forall_iff_forall_mem.mp post_keeps) ops hops)) op hop

/-! ## The argument arrays are written by no host line -/

/-- No line before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S32x64x1024 := Rect.unit (s := S32x64x1024) ![0, 0, 0] S32x64x1024.size inb_S32x64x1024_S32x64x1024_0_0_0
abbrev rW : Rect S1024x384 := Rect.unit (s := S1024x384) ![0, 0] S1024x384.size inb_S1024x384_S1024x384_0_0
abbrev rB : Rect S1x384 := Rect.unit (s := S1x384) ![0, 0] S1x384.size inb_S1x384_S1x384_0_0
abbrev rL : Rect S32x64x64 := Rect.unit (s := S32x64x64) ![0, 0, 0] S32x64x64.size inb_S32x64x64_S32x64x64_0_0_0
abbrev rU : Rect S32x64x128 := Rect.unit (s := S32x64x128) ![0, 0, 0] S32x64x128.size inb_S32x64x128_S32x64x128_0_0_0

/-- What the body leaves in the logits' staging buffer: its one store, of the third payload of the three loaded blocks. -/
def outL (x0 : Vec F S32x64x1024 .f32) (x1 : Vec F S1024x384 .f32) (x2 : Vec F S1x384 .f32) : Vec F S32x64x64 .f32 :=
  View.canon [⟨rL, k0_pay3 (View.ld x0 rX) (View.ld x1 rW) (View.ld x2 rB)⟩]

/-- What the body leaves in the other result's staging buffer: its one store, of the second payload. -/
def outU (x0 : Vec F S32x64x1024 .f32) (x1 : Vec F S1024x384 .f32) (x2 : Vec F S1x384 .f32) : Vec F S32x64x128 .f32 :=
  View.canon [⟨rU, k0_pay2 (View.ld x0 rX) (View.ld x1 rW) (View.ld x2 rB)⟩]

theorem hz3 : (![0, 0, 0] : Fin 3 → Nat) = fun _ => 0 := funext fun a => by fin_cases a <;> rfl
theorem hz2 : (![0, 0] : Fin 2 → Nat) = fun _ => 0 := funext fun a => by fin_cases a <;> rfl

/-- Each store is of the whole buffer (a rectangle at offset zero of the buffer's own size), so it covers it. -/
theorem coverL (p0 : Vec F S32x64x64 .f32) (y : S32x64x64.Idx) :
    ∃ pc ∈ ([⟨rL, p0⟩] : List (View.Piece (Elt F) S32x64x64 .f32)), y ∈ pc.1.set :=
  ⟨⟨rL, p0⟩, List.mem_cons_self .., View.mem_set_unit_zero hz3 inb_S32x64x64_S32x64x64_0_0_0 y⟩
theorem coverU (p0 : Vec F S32x64x128 .f32) (y : S32x64x128.Idx) :
    ∃ pc ∈ ([⟨rU, p0⟩] : List (View.Piece (Elt F) S32x64x128 .f32)), y ∈ pc.1.set :=
  ⟨⟨rU, p0⟩, List.mem_cons_self .., View.mem_set_unit_zero hz3 inb_S32x64x128_S32x64x128_0_0_0 y⟩

set_option maxHeartbeats 1000000 in
/-- The body on whole staging memrefs — the inputs' at contents x0, x1, x2, the outputs' at anything — runs to the
    continuation with the inputs' as they were and the outputs' at outL, outU of the inputs'. -/
theorem sound_kernel (c : Dev nD) (E : Set ℕ) (i : grid0.Coords)
    (a1 : Memref sig .tc .vmem S32x64x1024 .f32) (h1 : a1.IsWhole) (a2 : Memref sig .tc .vmem S1024x384 .f32) (h2 : a2.IsWhole)
    (a3 : Memref sig .tc .vmem S1x384 .f32) (h3 : a3.IsWhole) (a4 : Memref sig .tc .vmem S32x64x64 .f32) (h4 : a4.IsWhole)
    (a5 : Memref sig .tc .vmem S32x64x128 .f32) (h5 : a5.IsWhole)
    (x0 : Vec F S32x64x1024 .f32) (x1 : Vec F S1024x384 .f32) (x2 : Vec F S1x384 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (outL x0 x1 x2) ∗ owns (c : Thread nD τ) a5 fullShare (outU x0 x1 x2)) -∗ K ⟨⟩))
      ⊢ wp frame (wpE (defs₀ (F := F)) Variants.none c none) E (cc0__proj_attn_kernel i a1 h1 a2 h2 a3 h3 a4 h4 a5 h5) K := by
  simp only [cc0__proj_attn_kernel_eq_skeleton]; unfold cc0__proj_attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverL _)
  iexists _; isplitr
  swap; · iexact H4
  ipureintro
  exact View.read_writes_eq_canon _ _ _ (coverU _)

/-! ## The proof data -/

/-- On core c: the arrays as the region finds them; after the body at point t each input's buffer at its block and
    each output's at the stored value of the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outL (iblk m c 0 t) (iblk m c 1 t) (iblk m c 2 t)
    | ⟨4, _⟩ => outU (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outL (iblk m c 0 t) (iblk m c 1 t) (iblk m c 2 t) := by dsimp only [dats]
theorem after_4 (c : Dev nD) (t : Fin cfg0.N) :
    (dats m 0 c).after 4 t = outU (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates; at the end every array of the
    region holds what the proof data computes, and every other unscoped buffer what the lines after the region leave. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := post_sub) (hfresh := post_fresh') (hkeep := post_keeps')
    (hmain := hmain m Variants.none) (hA := A_eq m) (hΦ := fun _ _ => rfl)

/-- No line after the region writes argument 1 and it is no array of the region: it ends as launched. -/
theorem W_arg1 (c : Dev nD) :
    Pipeline.afterTail₀ cfgs (dats m) 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line after the region writes argument 2 and it is no array of the region: it ends as launched. -/
theorem W_arg2 (c : Dev nD) :
    Pipeline.afterTail₀ cfgs (dats m) 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No line after the region writes argument 3 and it is no array of the region: it ends as launched. -/
theorem W_arg3 (c : Dev nD) :
    Pipeline.afterTail₀ cfgs (dats m) 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No line after the region writes argument 4 and it is no array of the region: it ends as launched. -/
theorem W_arg4 (c : Dev nD) :
    Pipeline.afterTail₀ cfgs (dats m) 0 (V0 m) [hostOps1, hostOps1_1, hostOps1_2, hostOps1_3, hostOps1_4, hostOps1_5, hostOps1_6] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No line after the region writes argument 5 and it is no array of the region: it ends as launched. -/
theorem W_arg5 (c : Dev nD) :
    Pipeline.afterTail₀ cfgs (dats m) 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-- No line after the region writes argument 6 and it is no array of the region: it ends as launched. -/
theorem W_arg6 (c : Dev nD) :
    Pipeline.afterTail₀ cfgs (dats m) 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_arg0 m c))),
     ((h c).2 main_arg1 (Pipeline.mem_restRefs_of main_arg1 (by decide) (by decide))).trans (W_arg1 m c),
     ((h c).2 main_arg2 (Pipeline.mem_restRefs_of main_arg2 (by decide) (by decide))).trans (W_arg2 m c),
     ((h c).2 main_arg3 (Pipeline.mem_restRefs_of main_arg3 (by decide) (by decide))).trans (W_arg3 m c),
     ((h c).2 main_arg4 (Pipeline.mem_restRefs_of main_arg4 (by decide) (by decide))).trans (W_arg4 m c),
     ((h c).2 main_arg5 (Pipeline.mem_restRefs_of main_arg5 (by decide) (by decide))).trans (W_arg5 m c),
     ((h c).2 main_arg6 (Pipeline.mem_restRefs_of main_arg6 (by decide) (by decide))).trans (W_arg6 m c)⟩) (run_main m ρ)

end Cert.Kernel.Hand

end
-- ==== Proof.KFrameI.lean ====
/-
  The run of the kernel's program around its one region, at any float instance.

  @main is: host lines that lay the constants down and build the two operand arrays (the weights side by side, the
  biases end to end), the region, and host lines that gather, mask and join what the region wrote.  The region's grid
  has 32 points; point t stages rows 32t … 32t+31 of the input (a block of [32, 64, 1024]), the whole weight matrix and
  the whole bias row, and writes back block t of each of its two results.  The body at a point loads the three input
  blocks, stores one value into each output block, and touches nothing else, so after the body each input block is
  what it was and each output block is the stored value: that is the proof data below.  Nothing here says what the
  stored values are (they are the skeleton's payloads of the three loaded blocks); the argument arrays are never
  written, which is the frame.
-/
import proofs.«160570_j2216203125394_1_alg».proof.Proof.Gen.KernelIdeal.Launch
import proofs.«160570_j2216203125394_1_alg».proof.Proof.Gen.KernelIdeal.Skeleton
import proofs.«160570_j2216203125394_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core c's buffer contents when the region is entered: the launch memory after the host lines before the region. -/
abbrev V0 (c : Dev nD) : Valuation τ sig (Elt F) :=
  StableHlo.after (List.flatten [hostOps0, hostOps0_1, hostOps0_2, hostOps0_3, hostOps0_4]) (fun b => m (c, b))
/-- The same, read at a reference. -/
abbrev V (c : Dev nD) (b : Ref sig .tc) : Buf (Elt F) ((c : Thread nD τ).loc b) := V0 m c (Proc.devRef .tc b)

/-- No host line allocates a buffer. -/
theorem pre_fresh : ([hostOps0, hostOps0_1, hostOps0_2, hostOps0_3, hostOps0_4] : List (List (HloOp τ sig (Elt F)))).Forall
    fun ops => ops.Forall fun op => op.fresh = ∅ := by
  simp only [List.Forall]; repeat' constructor
theorem post_fresh : ([hostOps1, hostOps1_1, hostOps1_2, hostOps1_3, hostOps1_4, hostOps1_5, hostOps1_6] : List (List (HloOp τ sig (Elt F)))).Forall
    fun ops => ops.Forall fun op => op.fresh = ∅ := by
  simp only [List.Forall]; repeat' constructor

/-- @main is the lines before the region, the region, and the region's continuation by the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0, hostOps0_1, hostOps0_2, hostOps0_3, hostOps0_4] [hostOps1, hostOps1_1, hostOps1_2, hostOps1_3, hostOps1_4, hostOps1_5, hostOps1_6]
    (by simp only [List.Forall]; exact ⟨hostOps0_sub, hostOps0_1_sub, hostOps0_2_sub, hostOps0_3_sub, hostOps0_4_sub⟩)
    (by simp only [List.Forall]; exact pre_fresh) main_chain

/-- The lines after the region touch only unscoped buffers of the TensorCore: the region's arrays and the buffers that bypass it. -/
theorem post_sub : ∀ ops ∈ ([hostOps1, hostOps1_1, hostOps1_2, hostOps1_3, hostOps1_4, hostOps1_5, hostOps1_6] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

theorem post_fresh' : ∀ ops ∈ ([hostOps1, hostOps1_1, hostOps1_2, hostOps1_3, hostOps1_4, hostOps1_5, hostOps1_6] : List (List (HloOp τ sig (Elt F)))), ∀ op ∈ ops, op.fresh = ∅ :=
  fun ops hops op hop => (List.forall_iff_forall_mem.mp ((List.forall_iff_forall_mem.mp post_fresh) ops hops)) op hop

/-- None of them writes an array of the region: each writes its own result buffer, and no result of a later line is
    an operand or result of the region. -/
theorem post_keeps : ([hostOps1, hostOps1_1, hostOps1_2, hostOps1_3, hostOps1_4, hostOps1_5, hostOps1_6] : List (List (HloOp τ sig (Elt F)))).Forall fun ops => ops.Forall fun op =>
    ∀ w, Proc.devRef .tc (Pipeline.arrRef spec0 w) ∉ op.writes := by
  simp only [hostOps1, hostOps1_1, hostOps1_2, hostOps1_3, hostOps1_4, hostOps1_5, hostOps1_6, List.Forall, StableHlo.nullary_writes, StableHlo.unary_writes, StableHlo.binary_writes, StableHlo.ternary_writes, StableHlo.reshape_writes, StableHlo.nary_writes, Finset.mem_singleton]
  repeat' apply And.intro
  all_goals intro w; fin_cases w <;> exact StableHlo.devRef_ne_of_ne (by decide)

theorem post_keeps' : ∀ ops ∈ ([hostOps1, hostOps1_1, hostOps1_2, hostOps1_3, hostOps1_4, hostOps1_5, hostOps1_6] : List (List (HloOp τ sig (Elt F)))), ∀ op ∈ ops,
    ∀ w, Proc.devRef .tc (Pipeline.arrRef spec0 w) ∉ op.writes :=
  fun ops hops op hop => (List.forall_iff_forall_mem.mp ((List.forall_iff_forall_mem.mp post_keeps) ops hops)) op hop

/-! ## The argument arrays are written by no host line -/

/-- No line before the region writes argument 0: the region finds it as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 1: the region finds it as launched. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 2: the region finds it as launched. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 3: the region finds it as launched. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 4: the region finds it as launched. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 5: the region finds it as launched. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- No line before the region writes argument 6: the region finds it as launched. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S32x64x1024 := Rect.unit (s := S32x64x1024) ![0, 0, 0] S32x64x1024.size inb_S32x64x1024_S32x64x1024_0_0_0
abbrev rW : Rect S1024x384 := Rect.unit (s := S1024x384) ![0, 0] S1024x384.size inb_S1024x384_S1024x384_0_0
abbrev rB : Rect S1x384 := Rect.unit (s := S1x384) ![0, 0] S1x384.size inb_S1x384_S1x384_0_0
abbrev rL : Rect S32x64x64 := Rect.unit (s := S32x64x64) ![0, 0, 0] S32x64x64.size inb_S32x64x64_S32x64x64_0_0_0
abbrev rU : Rect S32x64x128 := Rect.unit (s := S32x64x128) ![0, 0, 0] S32x64x128.size inb_S32x64x128_S32x64x128_0_0_0

/-- What the body leaves in the logits' staging buffer: its one store, of the third payload of the three loaded blocks. -/
def outL (x0 : Vec F S32x64x1024 .f32) (x1 : Vec F S1024x384 .f32) (x2 : Vec F S1x384 .f32) : Vec F S32x64x64 .f32 :=
  View.canon [⟨rL, k0_pay3 (View.ld x0 rX) (View.ld x1 rW) (View.ld x2 rB)⟩]

/-- What the body leaves in the other result's staging buffer: its one store, of the second payload. -/
def outU (x0 : Vec F S32x64x1024 .f32) (x1 : Vec F S1024x384 .f32) (x2 : Vec F S1x384 .f32) : Vec F S32x64x128 .f32 :=
  View.canon [⟨rU, k0_pay2 (View.ld x0 rX) (View.ld x1 rW) (View.ld x2 rB)⟩]

theorem hz3 : (![0, 0, 0] : Fin 3 → Nat) = fun _ => 0 := funext fun a => by fin_cases a <;> rfl
theorem hz2 : (![0, 0] : Fin 2 → Nat) = fun _ => 0 := funext fun a => by fin_cases a <;> rfl

/-- Each store is of the whole buffer (a rectangle at offset zero of the buffer's own size), so it covers it. -/
theorem coverL (p0 : Vec F S32x64x64 .f32) (y : S32x64x64.Idx) :
    ∃ pc ∈ ([⟨rL, p0⟩] : List (View.Piece (Elt F) S32x64x64 .f32)), y ∈ pc.1.set :=
  ⟨⟨rL, p0⟩, List.mem_cons_self .., View.mem_set_unit_zero hz3 inb_S32x64x64_S32x64x64_0_0_0 y⟩
theorem coverU (p0 : Vec F S32x64x128 .f32) (y : S32x64x128.Idx) :
    ∃ pc ∈ ([⟨rU, p0⟩] : List (View.Piece (Elt F) S32x64x128 .f32)), y ∈ pc.1.set :=
  ⟨⟨rU, p0⟩, List.mem_cons_self .., View.mem_set_unit_zero hz3 inb_S32x64x128_S32x64x128_0_0_0 y⟩

set_option maxHeartbeats 1000000 in
/-- The body on whole staging memrefs — the inputs' at contents x0, x1, x2, the outputs' at anything — runs to the
    continuation with the inputs' as they were and the outputs' at outL, outU of the inputs'. -/
theorem sound_kernel (c : Dev nD) (E : Set ℕ) (i : grid0.Coords)
    (a1 : Memref sig .tc .vmem S32x64x1024 .f32) (h1 : a1.IsWhole) (a2 : Memref sig .tc .vmem S1024x384 .f32) (h2 : a2.IsWhole)
    (a3 : Memref sig .tc .vmem S1x384 .f32) (h3 : a3.IsWhole) (a4 : Memref sig .tc .vmem S32x64x64 .f32) (h4 : a4.IsWhole)
    (a5 : Memref sig .tc .vmem S32x64x128 .f32) (h5 : a5.IsWhole)
    (x0 : Vec F S32x64x1024 .f32) (x1 : Vec F S1024x384 .f32) (x2 : Vec F S1x384 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (outL x0 x1 x2) ∗ owns (c : Thread nD τ) a5 fullShare (outU x0 x1 x2)) -∗ K ⟨⟩))
      ⊢ wp frame (wpE (defs₀ (F := F)) Variants.none c none) E (cc0__proj_attn_kernel i a1 h1 a2 h2 a3 h3 a4 h4 a5 h5) K := by
  simp only [cc0__proj_attn_kernel_eq_skeleton]; unfold cc0__proj_attn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverL _)
  iexists _; isplitr
  swap; · iexact H4
  ipureintro
  exact View.read_writes_eq_canon _ _ _ (coverU _)

/-! ## The proof data -/

/-- On core c: the arrays as the region finds them; after the body at point t each input's buffer at its block and
    each output's at the stored value of the three input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outL (iblk m c 0 t) (iblk m c 1 t) (iblk m c 2 t)
    | ⟨4, _⟩ => outU (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outL (iblk m c 0 t) (iblk m c 1 t) (iblk m c 2 t) := by dsimp only [dats]
theorem after_4 (c : Dev nD) (t : Fin cfg0.N) :
    (dats m 0 c).after 4 t = outU (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates; at the end every array of the
    region holds what the proof data computes, and every other unscoped buffer what the lines after the region leave. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4, hostOps1_5, hostOps1_6])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6]) (hsub := post_sub) (hfresh := post_fresh') (hkeep := post_keeps')
    (hmain := hmain m Variants.none) (hA := A_eq m) (hΦ := fun _ _ => rfl)

/-- No line after the region writes argument 1 and it is no array of the region: it ends as launched. -/
theorem W_arg1 (c : Dev nD) :
    Pipeline.afterTail₀ cfgs (dats m) 0 (V0 m) [hostOps1, hostOps1_1, hostOps1_2, hostOps1_3, hostOps1_4, hostOps1_5, hostOps1_6] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No line after the region writes argument 2 and it is no array of the region: it ends as launched. -/
theorem W_arg2 (c : Dev nD) :
    Pipeline.afterTail₀ cfgs (dats m) 0 (V0 m) [hostOps1, hostOps1_1, hostOps1_2, hostOps1_3, hostOps1_4, hostOps1_5, hostOps1_6] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No line after the region writes argument 3 and it is no array of the region: it ends as launched. -/
theorem W_arg3 (c : Dev nD) :
    Pipeline.afterTail₀ cfgs (dats m) 0 (V0 m) [hostOps1, hostOps1_1, hostOps1_2, hostOps1_3, hostOps1_4, hostOps1_5, hostOps1_6] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-- No line after the region writes argument 4 and it is no array of the region: it ends as launched. -/
theorem W_arg4 (c : Dev nD) :
    Pipeline.afterTail₀ cfgs (dats m) 0 (V0 m) [hostOps1, hostOps1_1, hostOps1_2, hostOps1_3, hostOps1_4, hostOps1_5, hostOps1_6] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_arg4 m c

/-- No line after the region writes argument 5 and it is no array of the region: it ends as launched. -/
theorem W_arg5 (c : Dev nD) :
    Pipeline.afterTail₀ cfgs (dats m) 0 (V0 m) [hostOps1, hostOps1_1, hostOps1_2, hostOps1_3, hostOps1_4, hostOps1_5, hostOps1_6] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c

/-- No line after the region writes argument 6 and it is no array of the region: it ends as launched. -/
theorem W_arg6 (c : Dev nD) :
    Pipeline.afterTail₀ cfgs (dats m) 0 (V0 m) [hostOps1, hostOps1_1, hostOps1_2, hostOps1_3, hostOps1_4, hostOps1_5, hostOps1_6] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 0).trans (((dats m 0 c).arrAt_in 0 rfl _).trans ((A_eq m c 0).trans (V_arg0 m c))),
     ((h c).2 main_arg1 (Pipeline.mem_restRefs_of main_arg1 (by decide) (by decide))).trans (W_arg1 m c),
     ((h c).2 main_arg2 (Pipeline.mem_restRefs_of main_arg2 (by decide) (by decide))).trans (W_arg2 m c),
     ((h c).2 main_arg3 (Pipeline.mem_restRefs_of main_arg3 (by decide) (by decide))).trans (W_arg3 m c),
     ((h c).2 main_arg4 (Pipeline.mem_restRefs_of main_arg4 (by decide) (by decide))).trans (W_arg4 m c),
     ((h c).2 main_arg5 (Pipeline.mem_restRefs_of main_arg5 (by decide) (by decide))).trans (W_arg5 m c),
     ((h c).2 main_arg6 (Pipeline.mem_restRefs_of main_arg6 (by decide) (by decide))).trans (W_arg6 m c)⟩) (run_main m ρ)

end Cert.KernelIdeal.Hand

end
-- ==== Proof.KTerms.lean ====
/-
  The two operand arrays the host prepares for the kernel, as compositions of the pure operations the program prints.

  wAll is the three weight matrices side by side, [Wq | Wk | Wu padded with zero columns to 128], a 1024 × 384 matrix;
  bAll is the three bias vectors end to end, [bq | bk | bu padded with zeros to 128], as one row of 384.
-/
import proofs.«160570_j2216203125394_1_alg».proof.KernelIdeal
import Idealize.ShloMosaic.PureOps.Ideal

noncomputable section

namespace Cert.KernelIdeal.Hand

open Idealize.ShloMosaic Cert.KernelIdeal Cert.KernelIdeal.Facts₀

variable [Cert.KernelIdeal.Facts]

/-- The weights side by side: columns 0–127 are Wq, 128–255 are Wk, 256–264 are Wu and 265–383 the padding value. -/
def wAll (Wq Wk : FVec Ideal S1024x128 .f32) (Wu : FVec Ideal S1024x9 .f32) : FVec Ideal S1024x384 .f32 :=
  concatenate S1024x384 1
    [⟨S1024x128, Wq⟩, ⟨S1024x128, Wk⟩,
     ⟨S1024x128, pad S1024x128 ![0, 0] ![0, 119] ![0, 0] Wu (sitofp .f32 (constantI S_ 32 0#32))
        pads_S1024x9_S1024x128_000_01190 h_S_⟩]
    concatenates_S1024x128_S1024x128_S1024x128_S1024x384_d1

/-- The biases end to end, as one row: entries 0–127 are bq, 128–255 are bk, 256–264 are bu, the rest the padding value. -/
def bAll (bq bk : FVec Ideal S128 .f32) (bu : FVec Ideal S9 .f32) : FVec Ideal S1x384 .f32 :=
  shapeCast S1x384
    (concatenate S384 0
      [⟨S128, bq⟩, ⟨S128, bk⟩,
       ⟨S128, pad S128 ![0] ![119] ![0] bu (sitofp .f32 (constantI S_ 32 0#32)) pads_S9_S128_01190 h_S_⟩]
      concatenates_S128_S128_S128_S384_d0)
    shapeCasts_S384_S1x384

end Cert.KernelIdeal.Hand

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.KTail.lean ====
/-
  The host lines after the region, read as one pure function of what the region wrote, and the operand arrays and
  constant tables the host lines before the region lay down.

  The lines after the region come in seven stretches (two of @main's own lines, the gather's twenty-two, two more of
  @main's, the first masking's three, three of @main's, the second masking's three, the join and the final layout).
  Each stretch is read by itself over arbitrary buffer contents — what it leaves in the few buffers a later stretch
  reads — and the seven are then composed from the last one inwards.
-/
import proofs.«160570_j2216203125394_1_alg».proof.Proof.KFrameI
import proofs.«160570_j2216203125394_1_alg».proof.Proof.KTerms
import proofs.«160570_j2216203125394_1_alg».proof.Proof.LibAfterAppend
import proofs.«160570_j2216203125394_1_alg».proof.Proof.LibTRefCasts
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Facts₀

/-- The gather along the last axis: entry (b, f, j) of the result is L at (b, f, idx (b, f, j)), through the printed
    steps — an index below zero is first shifted up by 64, the library gather of single elements reads L at the index,
    and where the index is outside 0 … 63 the printed fill value is put instead.  Never opened. -/
def takeAlong (L : FVec Ideal S1024x64x64 .f32) (idx : IVec S1024x64x64 32) : FVec Ideal S1024x64x64 .f32 :=
  let z : IVec S1024x64x64 32 := broadcastInDim S1024x64x64 ![] bcast_S_S1024x64x64 (constantI S_ 32 0#32)
  let isNeg : IVec S1024x64x64 1 := cmpi .slt idx z
  let n64 : IVec S1024x64x64 32 := broadcastInDim S1024x64x64 ![] bcast_S_S1024x64x64 (constantI S_ 32 64#32)
  let wrapped : IVec S1024x64x64 32 := addi idx n64
  let idx' : IVec S1024x64x64 32 := select isNeg wrapped idx
  let idx4 : IVec S1024x64x64x1 32 := shapeCast S1024x64x64x1 idx' shapeCasts_S1024x64x64_S1024x64x64x1
  let z4 : IVec S1024x64x64x1 32 := broadcastInDim S1024x64x64x1 ![] bcast_S_S1024x64x64x1 (constantI S_ 32 0#32)
  let ge : IVec S1024x64x64x1 1 := cmpi .sge idx4 z4
  let hi1 : IVec S1x1x1x1 32 := broadcastInDim S1x1x1x1 ![3] bcast_S1_S1x1x1x1_3 (constantI S1 32 63#32)
  let hi : IVec S1024x64x64x1 32 := broadcastInDim S1024x64x64x1 ![0, 1, 2, 3] bcast_S1x1x1x1_S1024x64x64x1_0_1_2_3 hi1
  let le : IVec S1024x64x64x1 1 := cmpi .sle idx4 hi
  let inr4 : IVec S1024x64x64x1 1 := andi ge le
  let inr : IVec S1024x64x64 1 := Host.reduce IntOp.andi inr4 (constantI S_ 1 1#1) reducesTo_S1024x64x64x1_S1024x64x64_d3 h_S_
  let got : FVec Ideal S1024x64x64 .f32 := Host.gather gather_S1024x64x64_S1024x64x64x1_S1024x64x64_n_2_01_01_2_3_111 L idx4
  let fill : FVec Ideal S1024x64x64 .f32 := broadcastInDim S1024x64x64 ![] bcast_S_S1024x64x64 (constant (F := Ideal) S_ .f32 0x7FC00000#32)
  select inr got fill

/-- Everything the program does to the logits L and the nine under-promotion columns U after they are computed, as one
    pure function: the table of to-squares t0, broadcast over batch entries, gathers along the last axis of L; the
    gathered logits are kept where the validity table t1 is set and replaced by the printed literal elsewhere; U is
    kept on the squares the table t2 marks and replaced by the literal elsewhere; the two are joined along the last
    axis and the result laid out as 1024 rows of 64 · 73 entries.  It is never opened: both programs apply it, so only
    its arguments are compared. -/
def tail (t0 : IVec S64x64 32) (t1 : IVec S64x64 1) (t2 : IVec S64 1)
    (L : FVec Ideal S1024x64x64 .f32) (U : FVec Ideal S1024x64x9 .f32) : FVec Ideal S1024x4672 .f32 :=
  let idx : IVec S1024x64x64 32 := broadcastInDim S1024x64x64 ![0, 1, 2] bcast_S1x64x64_S1024x64x64_0_1_2
    (broadcastInDim S1x64x64 ![1, 2] bcast_S64x64_S1x64x64_1_2 t0)
  let valid : IVec S1024x64x64 1 := broadcastInDim S1024x64x64 ![0, 1, 2] bcast_S1x64x64_S1024x64x64_0_1_2
    (broadcastInDim S1x64x64 ![1, 2] bcast_S64x64_S1x64x64_1_2 t1)
  let off : FVec Ideal S1024x64x64 .f32 := broadcastInDim S1024x64x64 ![] bcast_S_S1024x64x64 (constant (F := Ideal) S_ .f32 0xCE6E6B28#32)
  let masked : FVec Ideal S1024x64x64 .f32 := select valid (takeAlong L idx) off
  let promo : IVec S1024x64x9 1 := broadcastInDim S1024x64x9 ![0, 1, 2] bcast_S1x64x1_S1024x64x9_0_1_2
    (broadcastInDim S1x64x1 ![1] bcast_S64_S1x64x1_1 t2)
  let offU : FVec Ideal S1024x64x9 .f32 := broadcastInDim S1024x64x9 ![] bcast_S_S1024x64x9 (constant (F := Ideal) S_ .f32 0xCE6E6B28#32)
  let maskedU : FVec Ideal S1024x64x9 .f32 := select promo U offU
  shapeCast S1024x4672
    (concatenate S1024x64x73 2 [⟨S1024x64x64, masked⟩, ⟨S1024x64x9, maskedU⟩] concatenates_S1024x64x64_S1024x64x9_S1024x64x73_d2)
    shapeCasts_S1024x64x73_S1024x4672

/-! ## The stretches after the region, one by one -/

/-- The last two lines join the two masked arrays along the last axis and lay the result out as rows. -/
theorem s7_out (X : Valuation τ sig (Elt Ideal)) :
    StableHlo.after Gen.hostOps1_6 X (Proc.devRef .tc main_v15) = shapeCast S1024x4672 (concatenate S1024x64x73 2 [⟨S1024x64x64, X (Proc.devRef .tc main_v10)⟩, ⟨S1024x64x9, X (Proc.devRef .tc main_v13)⟩] concatenates_S1024x64x64_S1024x64x9_S1024x64x73_d2) shapeCasts_S1024x64x73_S1024x4672 := by
  simp only [Gen.hostOps1_6]
  after_results
  try rfl

/-- The second masking: the nine columns kept where the broadcast mask is set, the broadcast literal elsewhere. -/
theorem s6_v13 (X : Valuation τ sig (Elt Ideal)) :
    StableHlo.after Gen.hostOps1_5 X (Proc.devRef .tc main_v13) = select (broadcastInDim S1024x64x9 ![0, 1, 2] bcast_S1x64x1_S1024x64x9_0_1_2 (X (Proc.devRef .tc main_v12))) (X (Proc.devRef .tc main_v11)) (broadcastInDim S1024x64x9 ![] bcast_S_S1024x64x9 (X (Proc.devRef .tc main_cst_4))) := by
  simp only [Gen.hostOps1_5]
  after_results
  try rfl

/-- This stretch does not write v10. -/
theorem s6_v10 (X : Valuation τ sig (Elt Ideal)) :
    StableHlo.after Gen.hostOps1_5 X (Proc.devRef .tc main_v10) = X (Proc.devRef .tc main_v10) := by
  simp only [Gen.hostOps1_5]
  after_results
  try rfl

/-- The first nine columns of the region's second result. -/
theorem s5_v11 (X : Valuation τ sig (Elt Ideal)) :
    StableHlo.after Gen.hostOps1_4 X (Proc.devRef .tc main_v11) = extractStridedSlice S1024x64x9 ![0, 0, 0] (X (Proc.devRef .tc main_v5_1)) slices_S1024x64x128_S1024x64x9_0_0_0 := by
  simp only [Gen.hostOps1_4]
  after_results
  try rfl

/-- The promotion table as a column per square. -/
theorem s5_v12 (X : Valuation τ sig (Elt Ideal)) :
    StableHlo.after Gen.hostOps1_4 X (Proc.devRef .tc main_v12) = broadcastInDim S1x64x1 ![1] bcast_S64_S1x64x1_1 (X (Proc.devRef .tc main_c_1)) := by
  simp only [Gen.hostOps1_4]
  after_results
  try rfl

/-- The masking literal. -/
theorem s5_cst (X : Valuation τ sig (Elt Ideal)) :
    StableHlo.after Gen.hostOps1_4 X (Proc.devRef .tc main_cst_4) = constant (F := Ideal) S_ .f32 0xCE6E6B28#32 := by
  simp only [Gen.hostOps1_4]
  after_results
  try rfl

/-- This stretch does not write v10. -/
theorem s5_v10 (X : Valuation τ sig (Elt Ideal)) :
    StableHlo.after Gen.hostOps1_4 X (Proc.devRef .tc main_v10) = X (Proc.devRef .tc main_v10) := by
  simp only [Gen.hostOps1_4]
  after_results
  try rfl

/-- The first masking: the gathered logits kept where the broadcast validity mask is set, the broadcast literal elsewhere. -/
theorem s4_v10 (X : Valuation τ sig (Elt Ideal)) :
    StableHlo.after Gen.hostOps1_3 X (Proc.devRef .tc main_v10) = select (broadcastInDim S1024x64x64 ![0, 1, 2] bcast_S1x64x64_S1024x64x64_0_1_2 (X (Proc.devRef .tc main_v9))) (X (Proc.devRef .tc main_v8)) (broadcastInDim S1024x64x64 ![] bcast_S_S1024x64x64 (X (Proc.devRef .tc main_cst))) := by
  simp only [Gen.hostOps1_3]
  after_results
  try rfl

/-- This stretch does not write v5_1. -/
theorem s4_v5_1 (X : Valuation τ sig (Elt Ideal)) :
    StableHlo.after Gen.hostOps1_3 X (Proc.devRef .tc main_v5_1) = X (Proc.devRef .tc main_v5_1) := by
  simp only [Gen.hostOps1_3]
  after_results
  try rfl

/-- This stretch does not write c_1. -/
theorem s4_c_1 (X : Valuation τ sig (Elt Ideal)) :
    StableHlo.after Gen.hostOps1_3 X (Proc.devRef .tc main_c_1) = X (Proc.devRef .tc main_c_1) := by
  simp only [Gen.hostOps1_3]
  after_results
  try rfl

/-- The validity table with a leading unit axis. -/
theorem s3_v9 (X : Valuation τ sig (Elt Ideal)) :
    StableHlo.after Gen.hostOps1_2 X (Proc.devRef .tc main_v9) = broadcastInDim S1x64x64 ![1, 2] bcast_S64x64_S1x64x64_1_2 (X (Proc.devRef .tc main_c_0)) := by
  simp only [Gen.hostOps1_2]
  after_results
  try rfl

/-- The masking literal. -/
theorem s3_cst (X : Valuation τ sig (Elt Ideal)) :
    StableHlo.after Gen.hostOps1_2 X (Proc.devRef .tc main_cst) = constant (F := Ideal) S_ .f32 0xCE6E6B28#32 := by
  simp only [Gen.hostOps1_2]
  after_results
  try rfl

/-- This stretch does not write v8. -/
theorem s3_v8 (X : Valuation τ sig (Elt Ideal)) :
    StableHlo.after Gen.hostOps1_2 X (Proc.devRef .tc main_v8) = X (Proc.devRef .tc main_v8) := by
  simp only [Gen.hostOps1_2]
  after_results
  try rfl

/-- This stretch does not write v5_1. -/
theorem s3_v5_1 (X : Valuation τ sig (Elt Ideal)) :
    StableHlo.after Gen.hostOps1_2 X (Proc.devRef .tc main_v5_1) = X (Proc.devRef .tc main_v5_1) := by
  simp only [Gen.hostOps1_2]
  after_results
  try rfl

/-- This stretch does not write c_1. -/
theorem s3_c_1 (X : Valuation τ sig (Elt Ideal)) :
    StableHlo.after Gen.hostOps1_2 X (Proc.devRef .tc main_c_1) = X (Proc.devRef .tc main_c_1) := by
  simp only [Gen.hostOps1_2]
  after_results
  try rfl

attribute [local irreducible] Host.reduce Host.gather in
set_option maxHeartbeats 400000 in
/-- The gather along the last axis of the region's first result by the broadcast table of to-squares: the twenty-two
    lines of the gather, read in one pass, are takeAlong once the paired transports between a value's type and its
    buffer's type are removed. -/
theorem s2_v8 (X : Valuation τ sig (Elt Ideal)) :
    StableHlo.after Gen.hostOps1_1 X (Proc.devRef .tc main_v8) = takeAlong (X (Proc.devRef .tc main_v5_0)) (X (Proc.devRef .tc main_v7)) := by
  simp only [Gen.hostOps1_1]
  after_results
  simp only [Cert.Lib.ofBuf_toBuf]
  unfold takeAlong
  rfl

/-- This stretch does not write c_0. -/
theorem s2_c_0 (X : Valuation τ sig (Elt Ideal)) :
    StableHlo.after Gen.hostOps1_1 X (Proc.devRef .tc main_c_0) = X (Proc.devRef .tc main_c_0) := by
  simp only [Gen.hostOps1_1]
  after_results
  try rfl

/-- This stretch does not write v5_1. -/
theorem s2_v5_1 (X : Valuation τ sig (Elt Ideal)) :
    StableHlo.after Gen.hostOps1_1 X (Proc.devRef .tc main_v5_1) = X (Proc.devRef .tc main_v5_1) := by
  simp only [Gen.hostOps1_1]
  after_results
  try rfl

/-- This stretch does not write c_1. -/
theorem s2_c_1 (X : Valuation τ sig (Elt Ideal)) :
    StableHlo.after Gen.hostOps1_1 X (Proc.devRef .tc main_c_1) = X (Proc.devRef .tc main_c_1) := by
  simp only [Gen.hostOps1_1]
  after_results
  try rfl

/-- The table of to-squares broadcast over batch entries. -/
theorem s1_v7 (X : Valuation τ sig (Elt Ideal)) :
    StableHlo.after Gen.hostOps1 X (Proc.devRef .tc main_v7) = broadcastInDim S1024x64x64 ![0, 1, 2] bcast_S1x64x64_S1024x64x64_0_1_2 (broadcastInDim S1x64x64 ![1, 2] bcast_S64x64_S1x64x64_1_2 (X (Proc.devRef .tc main_c))) := by
  simp only [Gen.hostOps1]
  after_results
  try rfl

/-- This stretch does not write v5_0. -/
theorem s1_v5_0 (X : Valuation τ sig (Elt Ideal)) :
    StableHlo.after Gen.hostOps1 X (Proc.devRef .tc main_v5_0) = X (Proc.devRef .tc main_v5_0) := by
  simp only [Gen.hostOps1]
  after_results
  try rfl

/-- This stretch does not write c_0. -/
theorem s1_c_0 (X : Valuation τ sig (Elt Ideal)) :
    StableHlo.after Gen.hostOps1 X (Proc.devRef .tc main_c_0) = X (Proc.devRef .tc main_c_0) := by
  simp only [Gen.hostOps1]
  after_results
  try rfl

/-- This stretch does not write v5_1. -/
theorem s1_v5_1 (X : Valuation τ sig (Elt Ideal)) :
    StableHlo.after Gen.hostOps1 X (Proc.devRef .tc main_v5_1) = X (Proc.devRef .tc main_v5_1) := by
  simp only [Gen.hostOps1]
  after_results
  try rfl

/-- This stretch does not write c_1. -/
theorem s1_c_1 (X : Valuation τ sig (Elt Ideal)) :
    StableHlo.after Gen.hostOps1 X (Proc.devRef .tc main_c_1) = X (Proc.devRef .tc main_c_1) := by
  simp only [Gen.hostOps1]
  after_results
  try rfl

/-- The lines after the region, folded over any buffer contents W, leave in the result buffer tail of W's three tables
    and W's two results of the region. -/
theorem tail_after (W : Valuation τ sig (Elt Ideal)) :
    StableHlo.after (List.flatten [Gen.hostOps1, Gen.hostOps1_1, Gen.hostOps1_2, Gen.hostOps1_3, Gen.hostOps1_4, Gen.hostOps1_5, Gen.hostOps1_6]) W (Proc.devRef .tc main_v15)
      = tail (W (Proc.devRef .tc main_c)) (W (Proc.devRef .tc main_c_0)) (W (Proc.devRef .tc main_c_1)) (W (Proc.devRef .tc main_v5_0))
          (extractStridedSlice S1024x64x9 ![0, 0, 0] (W (Proc.devRef .tc main_v5_1)) slices_S1024x64x128_S1024x64x9_0_0_0) := by
  simp only [List.flatten_cons, List.flatten_nil, List.append_nil, Cert.Lib.after_append]
  rw [s7_out, s6_v13, s6_v10, s5_v11, s5_v12, s5_cst, s5_v10, s4_v10, s4_v5_1, s4_c_1, s3_v9, s3_cst, s3_v8, s3_v5_1, s3_c_1,
    s2_v8, s2_c_0, s2_v5_1, s2_c_1, s1_v7, s1_v5_0, s1_c_0, s1_v5_1, s1_c_1]
  rfl

/-! ## What the region finds -/

variable (m : (ℓ : Loc nD τ sig) → Buf (Elt Ideal) ℓ)

/-- The region finds the three weight matrices side by side in its second operand, -/
theorem V_weights (c : Dev nD) : (V m c main_v2 : FVec Ideal S1024x384 .f32) = wAll (m ((c : Thread nD τ).loc main_arg1)) (m ((c : Thread nD τ).loc main_arg3)) (m ((c : Thread nD τ).loc main_arg5)) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-- and the three bias vectors end to end, as one row, in its third. -/
theorem V_biases (c : Dev nD) : (V m c main_v4 : FVec Ideal S1x384 .f32) = bAll (m ((c : Thread nD τ).loc main_arg2)) (m ((c : Thread nD τ).loc main_arg4)) (m ((c : Thread nD τ).loc main_arg6)) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-- The table of to-squares is laid down before the region, -/
theorem V_t0 (c : Dev nD) : (V m c main_c : IVec S64x64 32) = fun i => lit0 (S64x64.rowMajor i) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-- so is the validity table, -/
theorem V_t1 (c : Dev nD) : (V m c main_c_0 : IVec S64x64 1) = fun i => lit1 (S64x64.rowMajor i) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-- and the table of promotion squares. -/
theorem V_t2 (c : Dev nD) : (V m c main_c_1 : IVec S64 1) = fun i => lit2 (S64.rowMajor i) := by
  dsimp only [V, V0]
  simp only [Gen.hostOps0, Gen.hostOps0_1, Gen.hostOps0_2, Gen.hostOps0_3, Gen.hostOps0_4, List.flatten_cons, List.flatten_nil, List.append_nil, List.cons_append, List.nil_append]
  after_results
  rfl

/-- The result buffer after the whole run is tail of the three tables, the logits array and the first nine columns of
    the second result array as the region leaves them. -/
theorem result_eq (c : Dev nD) (L : FVec Ideal S1024x64x64 .f32) (U : FVec Ideal S1024x64x128 .f32)
    (hL : (dats m 0 c).arrAt 3 cfg0.N = L) (hU : (dats m 0 c).arrAt 4 cfg0.N = U) :
    Pipeline.afterTail₀ cfgs (dats m) 0 (V0 m) [Gen.hostOps1, Gen.hostOps1_1, Gen.hostOps1_2, Gen.hostOps1_3, Gen.hostOps1_4, Gen.hostOps1_5, Gen.hostOps1_6] c main_v15
      = tail (fun i => lit0 (S64x64.rowMajor i)) (fun i => lit1 (S64x64.rowMajor i)) (fun i => lit2 (S64.rowMajor i))
          L (extractStridedSlice S1024x64x9 ![0, 0, 0] U slices_S1024x64x128_S1024x64x9_0_0_0) := by
  unfold Pipeline.afterTail₀
  have hL' := (Pipeline.withArrays_arr spec0 Gen.launch0.win.arr_inj c (V0 m c) (fun w => (dats m 0 c).arrAt w cfg0.N) 3).trans hL
  have hU' := (Pipeline.withArrays_arr spec0 Gen.launch0.win.arr_inj c (V0 m c) (fun w => (dats m 0 c).arrAt w cfg0.N) 4).trans hU
  have h0 := (Pipeline.withArrays_of_ne spec0 c (V0 m c) (fun w => (dats m 0 c).arrAt w cfg0.N) main_c (by decide)).trans (V_t0 m c)
  have h1 := (Pipeline.withArrays_of_ne spec0 c (V0 m c) (fun w => (dats m 0 c).arrAt w cfg0.N) main_c_0 (by decide)).trans (V_t1 m c)
  have h2 := (Pipeline.withArrays_of_ne spec0 c (V0 m c) (fun w => (dats m 0 c).arrAt w cfg0.N) main_c_1 (by decide)).trans (V_t2 m c)
  generalize (Pipeline.withArrays spec0 c (V0 m c) fun w => (dats m 0 c).arrAt w cfg0.N) = W at hL' hU' h0 h1 h2 ⊢
  rw [tail_after W]
  exact congr (congr (congr (congr (congrArg tail h0) h1) h2) hL') (congrArg (fun u => extractStridedSlice S1024x64x9 ![0, 0, 0] u slices_S1024x64x128_S1024x64x9_0_0_0) hU')

end Cert.KernelIdeal.Hand

end
-- ==== Proof.KValue.lean ====
/-
  What the region leaves in its two result arrays, at the ideal instance.

  Point t of the grid stages rows 32t … 32t+31 of the input together with the whole weight matrix and the whole bias
  row, and writes back rows 32t … 32t+31 of each result.  So entry (b, ·, ·) of a result array is the body's stored
  value for the block of rows that contains b, read at row b mod 32: the two functions blockL and blockU below.  The
  32 blocks of 32 rows cover all 1024 rows, so each result array ends as that function everywhere.
-/
import proofs.«160570_j2216203125394_1_alg».proof.Proof.KFrameI
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- Rows 32t … 32t+31 of the input array. -/
def rowsBlock (x : FVec Ideal S1024x64x1024 .f32) (t : Fin 32) : Vec Ideal S32x64x1024 .f32 :=
  fun j => x (ix3 (⟨32 * t.val + (j 0).val, by have h : (j 0).val < 32 := (j 0).isLt; omega⟩ : Fin 1024) (j 1) (j 2))

/-- The logits array as the region leaves it: entry (b, f, t) is the stored value of the block of rows containing b. -/
def blockL (x : FVec Ideal S1024x64x1024 .f32) (w : Vec Ideal S1024x384 .f32) (β : Vec Ideal S1x384 .f32) :
    FVec Ideal S1024x64x64 .f32 :=
  fun i => k0_pay3 (F := Ideal) (rowsBlock x ⟨(i 0).val / 32, by have h : (i 0).val < 1024 := (i 0).isLt; omega⟩) w β
    (ix3 (⟨(i 0).val % 32, Nat.mod_lt _ (by decide)⟩ : Fin 32) (i 1) (i 2))

/-- The second result array as the region leaves it. -/
def blockU (x : FVec Ideal S1024x64x1024 .f32) (w : Vec Ideal S1024x384 .f32) (β : Vec Ideal S1x384 .f32) :
    FVec Ideal S1024x64x128 .f32 :=
  fun i => k0_pay2 (F := Ideal) (rowsBlock x ⟨(i 0).val / 32, by have h : (i 0).val < 1024 := (i 0).isLt; omega⟩) w β
    (ix3 (⟨(i 0).val % 32, Nat.mod_lt _ (by decide)⟩ : Fin 32) (i 1) (i 2))

/-- The printed index maps over the grid: the input and both results move one block of rows per point, the weights and
    the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 32 := lt_of_lt_of_eq t.isLt N_0

/-- The input's block at point t is rows 32t … 32t+31 of the argument. -/
theorem iblk0_eq (c : Dev nD) (t : Fin cfg0.N) :
    iblk m c 0 t = rowsBlock (m ((c : Thread nD τ).loc main_arg0)) ⟨t.val, t_lt t⟩ := by
  obtain ⟨e0, e1, e2, -⟩ := idx_facts t
  funext j
  show V m c main_arg0 (((cfg0.win 0).blk t).view.emb j) = _
  rw [V_arg0]
  unfold rowsBlock
  refine congrArg (m ((c : Thread nD τ).loc main_arg0)) (funext fun a => Fin.ext ?_)
  match a with
  | ⟨0, _⟩ => show win0_0.index t (0 : Fin 3) * 32 + 1 * (j 0).val = 32 * t.val + (j 0).val; omega
  | ⟨1, _⟩ => show win0_0.index t (1 : Fin 3) * 64 + 1 * (j 1).val = (j 1).val; omega
  | ⟨2, _⟩ => show win0_0.index t (2 : Fin 3) * 1024 + 1 * (j 2).val = (j 2).val; omega

/-- The weights' block at every point is the whole array. -/
theorem iblk1_eq (c : Dev nD) (t : Fin cfg0.N) : iblk m c 1 t = V m c main_v2 := by
  obtain ⟨-, -, -, e0, e1, -⟩ := idx_facts t
  funext j
  show V m c main_v2 (((cfg0.win 1).blk t).view.emb j) = V m c main_v2 j
  refine congrArg (V m c main_v2) (funext fun a => Fin.ext ?_)
  match a with
  | ⟨0, _⟩ => show win0_1.index t (0 : Fin 2) * 1024 + 1 * (j 0).val = (j 0).val; omega
  | ⟨1, _⟩ => show win0_1.index t (1 : Fin 2) * 384 + 1 * (j 1).val = (j 1).val; omega

/-- The bias row's block at every point is the whole row. -/
theorem iblk2_eq (c : Dev nD) (t : Fin cfg0.N) : iblk m c 2 t = V m c main_v4 := by
  obtain ⟨-, -, -, -, -, e0, e1, -⟩ := idx_facts t
  funext j
  show V m c main_v4 (((cfg0.win 2).blk t).view.emb j) = V m c main_v4 j
  refine congrArg (V m c main_v4) (funext fun a => Fin.ext ?_)
  match a with
  | ⟨0, _⟩ => show win0_2.index t (0 : Fin 2) * 1 + 1 * (j 0).val = (j 0).val; omega
  | ⟨1, _⟩ => show win0_2.index t (1 : Fin 2) * 384 + 1 * (j 1).val = (j 1).val; omega

/-- Entry i of blockL, when i is row p of block t, is the stored value of block t at row p. -/
theorem blockL_at (x : FVec Ideal S1024x64x1024 .f32) (w : Vec Ideal S1024x384 .f32) (β : Vec Ideal S1x384 .f32)
    (t : Fin 32) (j : S32x64x64.Idx) (i : S1024x64x64.Idx)
    (h0 : (i 0).val = 32 * t.val + (j 0).val) (h1 : (i 1).val = (j 1).val) (h2 : (i 2).val = (j 2).val) :
    blockL x w β i = k0_pay3 (F := Ideal) (rowsBlock x t) w β j := by
  have hj : (j 0).val < 32 := (j 0).isLt
  have e1 : (⟨(i 0).val / 32, by have h : (i 0).val < 1024 := (i 0).isLt; omega⟩ : Fin 32) = t := Fin.ext (by show (i 0).val / 32 = t.val; omega)
  have e2 : ix3 (⟨(i 0).val % 32, Nat.mod_lt _ (by decide)⟩ : Fin 32) (i 1) (i 2) = j := by
    funext a
    match a with
    | ⟨0, _⟩ => exact Fin.ext (by show (i 0).val % 32 = (j 0).val; omega)
    | ⟨1, _⟩ => exact Fin.ext h1
    | ⟨2, _⟩ => exact Fin.ext h2
  unfold blockL
  rw [e1]
  exact congrArg (k0_pay3 (F := Ideal) (rowsBlock x t) w β) e2

theorem blockU_at (x : FVec Ideal S1024x64x1024 .f32) (w : Vec Ideal S1024x384 .f32) (β : Vec Ideal S1x384 .f32)
    (t : Fin 32) (j : S32x64x128.Idx) (i : S1024x64x128.Idx)
    (h0 : (i 0).val = 32 * t.val + (j 0).val) (h1 : (i 1).val = (j 1).val) (h2 : (i 2).val = (j 2).val) :
    blockU x w β i = k0_pay2 (F := Ideal) (rowsBlock x t) w β j := by
  have hj : (j 0).val < 32 := (j 0).isLt
  have e1 : (⟨(i 0).val / 32, by have h : (i 0).val < 1024 := (i 0).isLt; omega⟩ : Fin 32) = t := Fin.ext (by show (i 0).val / 32 = t.val; omega)
  have e2 : ix3 (⟨(i 0).val % 32, Nat.mod_lt _ (by decide)⟩ : Fin 32) (i 1) (i 2) = j := by
    funext a
    match a with
    | ⟨0, _⟩ => exact Fin.ext (by show (i 0).val % 32 = (j 0).val; omega)
    | ⟨1, _⟩ => exact Fin.ext h1
    | ⟨2, _⟩ => exact Fin.ext h2
  unfold blockU
  rw [e1]
  exact congrArg (k0_pay2 (F := Ideal) (rowsBlock x t) w β) e2

/-- What point t writes back into the logits is block t of blockL. -/
theorem flushedL (c : Dev nD) (t : Fin cfg0.N) :
    (dats m 0 c).flushed 3 t = ((cfg0.win 3).blk t).view.read (Elt Ideal)
      (blockL (m ((c : Thread nD τ).loc main_arg0)) (V m c main_v2) (V m c main_v4)) := by
  obtain ⟨-, -, -, -, -, -, -, e0, e1, e2, -⟩ := idx_facts t
  show (cfg0.win 3).cut (grid0.coords t) ((dats m 0 c).after 3 t) = _
  rw [after_3]
  unfold outL
  rw [View.canon_unit_zero hz3]
  simp only [View.ld_unit_zero (S := S32x64x1024) hz3, View.ld_unit_zero (S := S1024x384) hz2, View.ld_unit_zero (S := S1x384) hz2]
  rw [iblk0_eq, iblk1_eq, iblk2_eq]
  funext j
  refine (blockL_at _ _ _ ⟨t.val, t_lt t⟩ j (((cfg0.win 3).blk t).view.emb j) ?_ ?_ ?_).symm
  · show win0_3.index t (0 : Fin 3) * 32 + 1 * (j 0).val = 32 * t.val + (j 0).val; omega
  · show win0_3.index t (1 : Fin 3) * 64 + 1 * (j 1).val = (j 1).val; omega
  · show win0_3.index t (2 : Fin 3) * 64 + 1 * (j 2).val = (j 2).val; omega

theorem flushedU (c : Dev nD) (t : Fin cfg0.N) :
    (dats m 0 c).flushed 4 t = ((cfg0.win 4).blk t).view.read (Elt Ideal)
      (blockU (m ((c : Thread nD τ).loc main_arg0)) (V m c main_v2) (V m c main_v4)) := by
  obtain ⟨-, -, -, -, -, -, -, -, -, -, e0, e1, e2⟩ := idx_facts t
  show (cfg0.win 4).cut (grid0.coords t) ((dats m 0 c).after 4 t) = _
  rw [after_4]
  unfold outU
  rw [View.canon_unit_zero hz3]
  simp only [View.ld_unit_zero (S := S32x64x1024) hz3, View.ld_unit_zero (S := S1024x384) hz2, View.ld_unit_zero (S := S1x384) hz2]
  rw [iblk0_eq, iblk1_eq, iblk2_eq]
  funext j
  refine (blockU_at _ _ _ ⟨t.val, t_lt t⟩ j (((cfg0.win 4).blk t).view.emb j) ?_ ?_ ?_).symm
  · show win0_4.index t (0 : Fin 3) * 32 + 1 * (j 0).val = 32 * t.val + (j 0).val; omega
  · show win0_4.index t (1 : Fin 3) * 64 + 1 * (j 1).val = (j 1).val; omega
  · show win0_4.index t (2 : Fin 3) * 128 + 1 * (j 2).val = (j 2).val; omega

/-- An index is in point t's block of the logits iff each coordinate is in the block's range. -/
theorem mem_blkL (t : Fin cfg0.N) (i : S1024x64x64.Idx) :
    i ∈ ((cfg0.win 3).blk t).view.set ↔ ∀ a : Fin 3, win0_3.index t a * S32x64x64.size a ≤ (i a).val ∧ (i a).val < win0_3.index t a * S32x64x64.size a + S32x64x64.size a := by
  show i ∈ ((View.whole main_v5_0).slice (win0_3.rect t)).set ↔ _
  rw [View.set_slice_whole, Rect.mem_set_unit]
  exact Iff.rfl

theorem mem_blkU (t : Fin cfg0.N) (i : S1024x64x128.Idx) :
    i ∈ ((cfg0.win 4).blk t).view.set ↔ ∀ a : Fin 3, win0_4.index t a * S32x64x128.size a ≤ (i a).val ∧ (i a).val < win0_4.index t a * S32x64x128.size a + S32x64x128.size a := by
  show i ∈ ((View.whole main_v5_1).slice (win0_4.rect t)).set ↔ _
  rw [View.set_slice_whole, Rect.mem_set_unit]
  exact Iff.rfl

/-- Row b lies in the block of point b / 32. -/
theorem coveredL (i : S1024x64x64.Idx) : ∃ t : Fin cfg0.N, (cfg0.win 3).flush t = true ∧ i ∈ ((cfg0.win 3).blk t).view.set := by
  have h0 : (i 0).val < 1024 := (i 0).isLt
  have h1 : (i 1).val < 64 := (i 1).isLt
  have h2 : (i 2).val < 64 := (i 2).isLt
  let t : Fin cfg0.N := ⟨(i 0).val / 32, by rw [show cfg0.N = 32 from N_0]; omega⟩
  obtain ⟨-, -, -, -, -, -, -, e0, e1, e2, -⟩ := idx_facts t
  have et : t.val = (i 0).val / 32 := rfl
  refine ⟨t, flush0_3 t, ?_⟩
  rw [mem_blkL]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 64 ≤ (i 1).val ∧ (i 1).val < win0_3.index t (1 : Fin 3) * 64 + 64; omega
  | ⟨2, _⟩ => show win0_3.index t (2 : Fin 3) * 64 ≤ (i 2).val ∧ (i 2).val < win0_3.index t (2 : Fin 3) * 64 + 64; omega

theorem coveredU (i : S1024x64x128.Idx) : ∃ t : Fin cfg0.N, (cfg0.win 4).flush t = true ∧ i ∈ ((cfg0.win 4).blk t).view.set := by
  have h0 : (i 0).val < 1024 := (i 0).isLt
  have h1 : (i 1).val < 64 := (i 1).isLt
  have h2 : (i 2).val < 128 := (i 2).isLt
  let t : Fin cfg0.N := ⟨(i 0).val / 32, by rw [show cfg0.N = 32 from N_0]; omega⟩
  obtain ⟨-, -, -, -, -, -, -, -, -, -, e0, e1, e2⟩ := idx_facts t
  have et : t.val = (i 0).val / 32 := rfl
  refine ⟨t, flush0_4 t, ?_⟩
  rw [mem_blkU]
  intro a
  match a with
  | ⟨0, _⟩ => show win0_4.index t (0 : Fin 3) * 32 ≤ (i 0).val ∧ (i 0).val < win0_4.index t (0 : Fin 3) * 32 + 32; omega
  | ⟨1, _⟩ => show win0_4.index t (1 : Fin 3) * 64 ≤ (i 1).val ∧ (i 1).val < win0_4.index t (1 : Fin 3) * 64 + 64; omega
  | ⟨2, _⟩ => show win0_4.index t (2 : Fin 3) * 128 ≤ (i 2).val ∧ (i 2).val < win0_4.index t (2 : Fin 3) * 128 + 128; omega

/-- The logits array after the region. -/
theorem finalL (c : Dev nD) : (dats m 0 c).arrAt 3 cfg0.N
    = blockL (m ((c : Thread nD τ).loc main_arg0)) (V m c main_v2) (V m c main_v4) :=
  (dats m 0 c).arrAt_eq_of_cover 3 _ (fun t _ => flushedL m c t) coveredL

/-- The second result array after the region. -/
theorem finalU (c : Dev nD) : (dats m 0 c).arrAt 4 cfg0.N
    = blockU (m ((c : Thread nD τ).loc main_arg0)) (V m c main_v2) (V m c main_v4) :=
  (dats m 0 c).arrAt_eq_of_cover 4 _ (fun t _ => flushedU m c t) coveredU

end Cert.KernelIdeal.Hand

end
-- ==== Proof.Spec.lean ====
/-
  The two arrays the kernel and the reference both compute, as index-by-index functions over the extended reals.

  For a batch entry b, a square s and a column p of a weight matrix W with bias β, a dense layer's entry is
      proj x W β b s p = (Σ_d x[b,s,d] · W[d,p]) + β[p].
  The attention logits between a from-square f and a to-square t are the scaled inner product of the query and key rows,
      logit b f t = (Σ_p q[b,f,p] · k[b,t,p]) · scale,   q = proj x Wq bq,  k = proj x Wk bk,
  and the under-promotion entries are proj x Wu bu.  The scale is the one float literal both programs carry; it is
  never evaluated.
-/
import Idealize.ShloMosaic.PureOps.Ideal
import Idealize.ShloMosaic.Lib.ValueIdx

noncomputable section

namespace Cert.Spec

open Idealize.ShloMosaic Idealize.ShloMosaic.ValueIdx

/-- The literal both programs multiply the inner products by (the float nearest 128^(-1/2)), as its exact binary value. -/
def scale : EReal := Ideal.ofBits .f32 0x3DB504F3#32

/-- One entry of a dense layer over the embedding axis: (Σ_d x[b,s,d] · W[d,p]) + β[p]. -/
def proj {n : Nat} (x : FVec Ideal ⟨3, ![1024, 64, 1024]⟩ .f32) (W : FVec Ideal ⟨2, ![1024, n]⟩ .f32)
    (β : FVec Ideal ⟨1, ![n]⟩ .f32) (b : Fin 1024) (s : Fin 64) (p : Fin n) : EReal :=
  (∑ d : Fin 1024, x (ix3 b s d) * W (ix2 d p)) + β (ix1 p)

/-- The scaled inner product of query row f and key row t of batch entry b. -/
def logit (x : FVec Ideal ⟨3, ![1024, 64, 1024]⟩ .f32)
    (Wq : FVec Ideal ⟨2, ![1024, 128]⟩ .f32) (bq : FVec Ideal ⟨1, ![128]⟩ .f32)
    (Wk : FVec Ideal ⟨2, ![1024, 128]⟩ .f32) (bk : FVec Ideal ⟨1, ![128]⟩ .f32)
    (b : Fin 1024) (f t : Fin 64) : EReal :=
  (∑ p : Fin 128, proj x Wq bq b f p * proj x Wk bk b t p) * scale

/-- The from-square × to-square logits of every batch entry. -/
def logits (x : FVec Ideal ⟨3, ![1024, 64, 1024]⟩ .f32)
    (Wq : FVec Ideal ⟨2, ![1024, 128]⟩ .f32) (bq : FVec Ideal ⟨1, ![128]⟩ .f32)
    (Wk : FVec Ideal ⟨2, ![1024, 128]⟩ .f32) (bk : FVec Ideal ⟨1, ![128]⟩ .f32) :
    FVec Ideal ⟨3, ![1024, 64, 64]⟩ .f32 :=
  fun i => logit x Wq bq Wk bk (i 0) (i 1) (i 2)

/-- The nine under-promotion entries of every square of every batch entry. -/
def ups (x : FVec Ideal ⟨3, ![1024, 64, 1024]⟩ .f32)
    (Wu : FVec Ideal ⟨2, ![1024, 9]⟩ .f32) (bu : FVec Ideal ⟨1, ![9]⟩ .f32) :
    FVec Ideal ⟨3, ![1024, 64, 9]⟩ .f32 :=
  fun i => proj x Wu bu (i 0) (i 1) (i 2)

theorem logits_apply (x : FVec Ideal ⟨3, ![1024, 64, 1024]⟩ .f32)
    (Wq : FVec Ideal ⟨2, ![1024, 128]⟩ .f32) (bq : FVec Ideal ⟨1, ![128]⟩ .f32)
    (Wk : FVec Ideal ⟨2, ![1024, 128]⟩ .f32) (bk : FVec Ideal ⟨1, ![128]⟩ .f32)
    (b : Fin 1024) (f t : Fin 64) :
    logits x Wq bq Wk bk (ix3 b f t) = logit x Wq bq Wk bk b f t := rfl

theorem ups_apply (x : FVec Ideal ⟨3, ![1024, 64, 1024]⟩ .f32)
    (Wu : FVec Ideal ⟨2, ![1024, 9]⟩ .f32) (bu : FVec Ideal ⟨1, ![9]⟩ .f32)
    (b : Fin 1024) (s : Fin 64) (n : Fin 9) :
    ups x Wu bu (ix3 b s n) = proj x Wu bu b s n := rfl

end Cert.Spec

end
-- ==== Proof.LibLayoutReads.lean ====
/-
  Arrays laid side by side, cut, and re-shaped, read at an index given by coordinates.

  Three matrices with the same number of rows laid side by side form one wide matrix: column c of the wide matrix is
  column c of the first piece while c is below the first piece's width, then column c − n0 of the second, then column
  c − n0 − n1 of the third.  Three vectors laid end to end behave the same way along their one axis.

  A stack of P matrices of S rows each is, row-major, one matrix of P·S rows: row p·S + s of the flat matrix is row s of
  matrix p, in both directions of the re-shaping.  A cut along the last axis of a rank-3 array starting at column o reads
  column o + j of the source at column j.  A matrix (or a vector) that was padded only at the high end of its last axis
  still reads the original entries at the original coordinates.
-/
import Idealize.ShloMosaic.Lib.ValueIdx
import Idealize.ShloMosaic.Lib.ValueLayout
import Idealize.ShloMosaic.Lib.Pipeline.Value
import Idealize.ShloMosaic.Lib.KernelVsHost

namespace Cert.Lib

open Idealize.ShloMosaic Idealize.ShloMosaic.ValueIdx

variable {α : Type}

/-! ## Three matrices side by side -/

/-- The wide matrix at a column of the first piece. -/
theorem concat3_cols_fst {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n0) (c : Fin N) (hc : c.val = q.val) :
    concatenate ⟨2, ![A, N]⟩ 1 [⟨⟨2, ![A, n0]⟩, x0⟩, ⟨⟨2, ![A, n1]⟩, x1⟩, ⟨⟨2, ![A, n2]⟩, x2⟩] h (ix2 d c) = x0 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 0 (by simp) ⟨2, ![A, n0]⟩ x0 rfl rfl 0 rfl (ix2 d q)
    (fun b => match b with
      | ⟨0, _⟩ => fun _ => rfl
      | ⟨1, _⟩ => fun hb => absurd rfl hb)
    (by show 0 + q.val = c.val; omega)

/-- The wide matrix at a column of the second piece. -/
theorem concat3_cols_snd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n1) (c : Fin N) (hc : c.val = n0 + q.val) :
    concatenate ⟨2, ![A, N]⟩ 1 [⟨⟨2, ![A, n0]⟩, x0⟩, ⟨⟨2, ![A, n1]⟩, x1⟩, ⟨⟨2, ![A, n2]⟩, x2⟩] h (ix2 d c) = x1 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 1 (by simp) ⟨2, ![A, n1]⟩ x1 rfl rfl (n0 + 0) rfl (ix2 d q)
    (fun b => match b with
      | ⟨0, _⟩ => fun _ => rfl
      | ⟨1, _⟩ => fun hb => absurd rfl hb)
    (by show n0 + 0 + q.val = c.val; omega)

/-- The wide matrix at a column of the third piece. -/
theorem concat3_cols_thd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n2) (c : Fin N) (hc : c.val = n0 + n1 + q.val) :
    concatenate ⟨2, ![A, N]⟩ 1 [⟨⟨2, ![A, n0]⟩, x0⟩, ⟨⟨2, ![A, n1]⟩, x1⟩, ⟨⟨2, ![A, n2]⟩, x2⟩] h (ix2 d c) = x2 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 2 (by simp) ⟨2, ![A, n2]⟩ x2 rfl rfl (n0 + (n1 + 0)) rfl (ix2 d q)
    (fun b => match b with
      | ⟨0, _⟩ => fun _ => rfl
      | ⟨1, _⟩ => fun hb => absurd rfl hb)
    (by show n0 + (n1 + 0) + q.val = c.val; omega)

/-! ## Three vectors end to end -/

/-- The long vector at an entry of the first piece. -/
theorem concat3_vec_fst {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n0) (c : Fin N) (hc : c.val = q.val) :
    concatenate ⟨1, ![N]⟩ 0 [⟨⟨1, ![n0]⟩, x0⟩, ⟨⟨1, ![n1]⟩, x1⟩, ⟨⟨1, ![n2]⟩, x2⟩] h (ix1 c) = x0 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 0 (by simp) ⟨1, ![n0]⟩ x0 rfl rfl 0 rfl (ix1 q)
    (fun b => match b with
      | ⟨0, _⟩ => fun hb => absurd rfl hb)
    (by show 0 + q.val = c.val; omega)

/-- The long vector at an entry of the second piece. -/
theorem concat3_vec_snd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n1) (c : Fin N) (hc : c.val = n0 + q.val) :
    concatenate ⟨1, ![N]⟩ 0 [⟨⟨1, ![n0]⟩, x0⟩, ⟨⟨1, ![n1]⟩, x1⟩, ⟨⟨1, ![n2]⟩, x2⟩] h (ix1 c) = x1 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 1 (by simp) ⟨1, ![n1]⟩ x1 rfl rfl (n0 + 0) rfl (ix1 q)
    (fun b => match b with
      | ⟨0, _⟩ => fun hb => absurd rfl hb)
    (by show n0 + 0 + q.val = c.val; omega)

/-- The long vector at an entry of the third piece. -/
theorem concat3_vec_thd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n2) (c : Fin N) (hc : c.val = n0 + n1 + q.val) :
    concatenate ⟨1, ![N]⟩ 0 [⟨⟨1, ![n0]⟩, x0⟩, ⟨⟨1, ![n1]⟩, x1⟩, ⟨⟨1, ![n2]⟩, x2⟩] h (ix1 c) = x2 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 2 (by simp) ⟨1, ![n2]⟩ x2 rfl rfl (n0 + (n1 + 0)) rfl (ix1 q)
    (fun b => match b with
      | ⟨0, _⟩ => fun hb => absurd rfl hb)
    (by show n0 + (n1 + 0) + q.val = c.val; omega)

/-! ## Padding at the high end of the last axis, read inside the original -/

/-- A matrix padded with extra columns on the right reads its own entry at a column it already had. -/
theorem pad_cols_inside {A C C' hc : Nat} (x : (⟨2, ![A, C]⟩ : Shape).Idx → α) {u : Shape} (v : u.Idx → α)
    (h : (⟨2, ![A, C]⟩ : Shape).Pads ![0, 0] ![0, hc] ![0, 0] ⟨2, ![A, C']⟩) (hu : 0 < u.numel)
    (p : Fin A) (n : Fin C) (q : Fin C') (hq : q.val = n.val) :
    pad ⟨2, ![A, C']⟩ ![0, 0] ![0, hc] ![0, 0] x v h hu (ix2 p q) = x (ix2 p n) :=
  pad_apply_of_inside _ _ _ x v h hu (ix2 p q) (ix2 p n) fun a => by
    match a with
    | ⟨0, _⟩ => show p.val = 0 + p.val * (0 + 1); omega
    | ⟨1, _⟩ => show q.val = 0 + n.val * (0 + 1); omega

/-- A vector padded with extra entries at its end reads its own entry at a position it already had. -/
theorem pad_vec_inside {C C' hc : Nat} (x : (⟨1, ![C]⟩ : Shape).Idx → α) {u : Shape} (v : u.Idx → α)
    (h : (⟨1, ![C]⟩ : Shape).Pads ![0] ![hc] ![0] ⟨1, ![C']⟩) (hu : 0 < u.numel)
    (n : Fin C) (q : Fin C') (hq : q.val = n.val) :
    pad ⟨1, ![C']⟩ ![0] ![hc] ![0] x v h hu (ix1 q) = x (ix1 n) :=
  pad_apply_of_inside _ _ _ x v h hu (ix1 q) (ix1 n) fun a => by
    match a with
    | ⟨0, _⟩ => show q.val = 0 + n.val * (0 + 1); omega

/-! ## A stack of matrices and the one tall matrix with the same rows -/

/-- The stack `[P, S, K]` flattened to `[R, K]` reads, at row `r = p·S + s`, row `s` of matrix `p`. -/
theorem shapeCast_merge_rows_apply {P S K R : Nat} (x : (⟨3, ![P, S, K]⟩ : Shape).Idx → α)
    (h : (⟨3, ![P, S, K]⟩ : Shape).ShapeCasts ⟨2, ![R, K]⟩) (p : Fin P) (s : Fin S) (d : Fin K) (r : Fin R)
    (hr : r.val = p.val * S + s.val) :
    shapeCast ⟨2, ![R, K]⟩ x h (ix2 r d) = x (ix3 p s d) :=
  shapeCast_apply x h _ _ (by
    rw [Shape.rowMajor_val_three, Shape.rowMajor_val_two]
    show (p.val * S + s.val) * K + d.val = r.val * K + d.val
    rw [hr])

/-- The tall matrix `[R, C]` cut into a stack `[P, S, C]` reads, at row `s` of matrix `p`, its row `r = p·S + s`. -/
theorem shapeCast_split_rows_apply {P S C R : Nat} (x : (⟨2, ![R, C]⟩ : Shape).Idx → α)
    (h : (⟨2, ![R, C]⟩ : Shape).ShapeCasts ⟨3, ![P, S, C]⟩) (p : Fin P) (s : Fin S) (c : Fin C) (r : Fin R)
    (hr : r.val = p.val * S + s.val) :
    shapeCast ⟨3, ![P, S, C]⟩ x h (ix3 p s c) = x (ix2 r c) :=
  shapeCast_apply x h _ _ (by
    rw [Shape.rowMajor_val_two, Shape.rowMajor_val_three]
    show r.val * C + c.val = (p.val * S + s.val) * C + c.val
    rw [hr])

/-! ## A cut along the last axis of a rank-3 array -/

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib
-- ==== Proof.KOperands.lean ====
/-
  The two operand arrays the host prepares, read entry by entry.

  wAll is [Wq | Wk | Wu padded with zero columns to 128]: in row d, column c holds Wq[d, c] for c < 128, Wk[d, c − 128]
  for 128 ≤ c < 256 and Wu[d, c − 256] for 256 ≤ c < 265.  bAll is the row [bq | bk | bu padded to 128] with the same
  three ranges.  The padding columns are never read here: the kernel's two results only use columns 0–255 and 256–264.
-/
import proofs.«160570_j2216203125394_1_alg».proof.Proof.KTerms
import proofs.«160570_j2216203125394_1_alg».proof.Proof.LibLayoutReads
import Idealize.ShloMosaic.Lib.ValueIdx
import Idealize.ShloMosaic.Lib.ValueLayout

noncomputable section

namespace Cert.KernelIdeal.Hand

open Idealize.ShloMosaic Idealize.ShloMosaic.ValueIdx Cert.KernelIdeal Cert.KernelIdeal.Facts₀

variable [Cert.KernelIdeal.Facts]

variable (Wq Wk : FVec Ideal S1024x128 .f32) (Wu : FVec Ideal S1024x9 .f32)
variable (bq bk : FVec Ideal S128 .f32) (bu : FVec Ideal S9 .f32)

/-! ## The weights -/

/-- Columns 0–127 of the joined weights are Wq. -/
theorem wAll_q (d : Fin 1024) (q : Fin 128) :
    wAll Wq Wk Wu (ix2 d ⟨q.val, by omega⟩) = Wq (ix2 d q) :=
  Cert.Lib.concat3_cols_fst Wq Wk _ concatenates_S1024x128_S1024x128_S1024x128_S1024x384_d1 d q _ rfl

/-- Columns 128–255 of the joined weights are Wk. -/
theorem wAll_k (d : Fin 1024) (q : Fin 128) :
    wAll Wq Wk Wu (ix2 d ⟨128 + q.val, by omega⟩) = Wk (ix2 d q) :=
  Cert.Lib.concat3_cols_snd Wq Wk _ concatenates_S1024x128_S1024x128_S1024x128_S1024x384_d1 d q _ rfl

/-- Columns 256–264 of the joined weights are Wu: the third piece is Wu padded on the right, read inside Wu. -/
theorem wAll_u (d : Fin 1024) (n : Fin 9) :
    wAll Wq Wk Wu (ix2 d ⟨256 + n.val, by omega⟩) = Wu (ix2 d n) :=
  (Cert.Lib.concat3_cols_thd Wq Wk _ concatenates_S1024x128_S1024x128_S1024x128_S1024x384_d1 d
      (⟨n.val, by omega⟩ : Fin 128) _ rfl).trans
    (Cert.Lib.pad_cols_inside Wu _ pads_S1024x9_S1024x128_000_01190 h_S_ d n _ rfl)

/-! ## The biases -/

/-- Entries 0–127 of the joined bias row are bq. -/
theorem bAll_q (q : Fin 128) :
    bAll bq bk bu (ix2 (0 : Fin 1) ⟨q.val, by omega⟩) = bq (ix1 q) :=
  (shapeCast_a_1a_apply _ shapeCasts_S384_S1x384 (0 : Fin 1) _).trans
    (Cert.Lib.concat3_vec_fst bq bk _ concatenates_S128_S128_S128_S384_d0 q _ rfl)

/-- Entries 128–255 of the joined bias row are bk. -/
theorem bAll_k (q : Fin 128) :
    bAll bq bk bu (ix2 (0 : Fin 1) ⟨128 + q.val, by omega⟩) = bk (ix1 q) :=
  (shapeCast_a_1a_apply _ shapeCasts_S384_S1x384 (0 : Fin 1) _).trans
    (Cert.Lib.concat3_vec_snd bq bk _ concatenates_S128_S128_S128_S384_d0 q _ rfl)

/-- Entries 256–264 of the joined bias row are bu: the third piece is bu padded at its end, read inside bu. -/
theorem bAll_u (n : Fin 9) :
    bAll bq bk bu (ix2 (0 : Fin 1) ⟨256 + n.val, by omega⟩) = bu (ix1 n) :=
  (shapeCast_a_1a_apply _ shapeCasts_S384_S1x384 (0 : Fin 1) _).trans
    ((Cert.Lib.concat3_vec_thd bq bk _ concatenates_S128_S128_S128_S384_d0 (⟨n.val, by omega⟩ : Fin 128) _ rfl).trans
      (Cert.Lib.pad_vec_inside bu _ pads_S9_S128_01190 h_S_ n _ rfl))

end Cert.KernelIdeal.Hand

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibBatchDot.lean ====
/-
  A batched matrix product, both operands contracted on their last axis, read at an index.

  For operands `l : [B, M, K]` and `r : [B, N, K]` with the first axis of each a batch axis and the last axis of each
  contracted, the result is `[B, M, N]`; at `(b, i, j)` and contraction coordinate `k` the operand indices are
  `(b, i, k)` and `(b, j, k)`.  So over the extended reals a `tpu.matmul` into a zero accumulator with these dimension
  numbers is, at `(b, i, j)`, the inner product `∑ k : Fin K, l (b, i, k) · r (b, j, k)` of row `i` of `l`'s matrix `b`
  with row `j` of `r`'s matrix `b`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The dimension numbers `[B, M, K] × [B, N, K] → [B, M, N]`: batch axis 0 of both operands, the last axis of both
    contracted, given the evidence that they are well formed. -/
abbrev batchedRowsRows (B M N K : Nat)
    (wf : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ :=
  { lhsContracting := [2], rhsContracting := [2], lhsNonContracting := [1], rhsNonContracting := [1],
    lhsBatch := [0], rhsBatch := [0], wf := wf }

/-- The contraction sum of the batched product, re-indexed by the contracted coordinate. -/
theorem batchedRowsRows_contr_sum {B M N K : Nat}
    (wf : DotDims.WF ⟨3, ![B, M, K]⟩ ⟨3, ![B, N, K]⟩ ⟨3, ![B, M, N]⟩ [2] [2] [1] [1] [0] [0])
    (l : (⟨3, ![B, M, K]⟩ : Shape).Idx → EReal) (r : (⟨3, ![B, N, K]⟩ : Shape).Idx → EReal)
    (b : Fin B) (i : Fin M) (j : Fin N) :
    ∑ k : (batchedRowsRows B M N K wf).contr.Idx,
        l ((batchedRowsRows B M N K wf).lhsIdx (ix3 b i j) k) * r ((batchedRowsRows B M N K wf).rhsIdx (ix3 b i j) k)
      = ∑ k : Fin K, l (ix3 b i k) * r (ix3 b j k) := by
  rw [← Equiv.sum_comp (contrEquiv1 (batchedRowsRows B M N K wf) K rfl rfl).symm]
  refine Finset.sum_congr rfl fun k _ => ?_
  have hl : (batchedRowsRows B M N K wf).lhsIdx (ix3 b i j)
      ((contrEquiv1 (batchedRowsRows B M N K wf) K rfl rfl).symm k) = ix3 b i k := by
    funext a
    refine Fin.ext ?_
    match a with
    | ⟨0, _⟩ => rfl
    | ⟨1, _⟩ => rfl
    | ⟨2, _⟩ =>
      exact ((batchedRowsRows B M N K wf).lhsIdx_val_of_single (cl := (2 : Fin 3)) rfl (ix3 b i j) _).trans
        (contrEquiv1_symm_val (batchedRowsRows B M N K wf) K rfl rfl k)
  have hr : (batchedRowsRows B M N K wf).rhsIdx (ix3 b i j)
      ((contrEquiv1 (batchedRowsRows B M N K wf) K rfl rfl).symm k) = ix3 b j k := by
    funext a
    refine Fin.ext ?_
    match a with
    | ⟨0, _⟩ => rfl
    | ⟨1, _⟩ => rfl
    | ⟨2, _⟩ =>
      exact ((batchedRowsRows B M N K wf).rhsIdx_val_of_single (cr := (2 : Fin 3)) rfl (ix3 b i j) _).trans
        (contrEquiv1_symm_val (batchedRowsRows B M N K wf) K rfl rfl k)
  rw [hl, hr]

/-- A `tpu.matmul` with these dimension numbers into the zero accumulator, at an index, over the extended reals. -/
theorem matmul_batchedRowsRows_zero_apply {B M N K : Nat} {φ₁ φ₂ : FTy}
    (wf : DotDims.WF ⟨3, ![B, M, K]⟩ ⟨3, ![B, N, K]⟩ ⟨3, ![B, M, N]⟩ [2] [2] [1] [1] [0] [0])
    (prec : Option ContractPrecision)
    (l : FVec Ideal ⟨3, ![B, M, K]⟩ φ₁) (r : FVec Ideal ⟨3, ![B, N, K]⟩ φ₂) (b : Fin B) (i : Fin M) (j : Fin N) :
    FloatOps.matmul (batchedRowsRows B M N K wf) prec l r (constant ⟨3, ![B, M, N]⟩ .f32 0x00000000#32) (ix3 b i j)
      = ∑ k : Fin K, l (ix3 b i k) * r (ix3 b j k) :=
  (Ideal.matmul_constant_zero_apply (batchedRowsRows B M N K wf) prec l r (ix3 b i j)).trans
    (batchedRowsRows_contr_sum wf l r b i j)

end Cert.Lib

end
-- ==== Proof.KPay.lean ====
/-
  The kernel body's two stored values, read entry by entry.

  The body first forms one dense layer over the joined weights: with the 32 × 64 rows of the block flattened to 2048 rows,
      y[p, s, c] = (Σ_d x[p, s, d] · w[d, c]) + β[0, c]            (c < 384),
  because rounding to a shorter float format is the identity on extended reals, the product into a zero accumulator is
  the plain sum, and the one bias row is repeated on every row.  Columns 0–127 of y are the queries, 128–255 the keys,
  256–383 the (padded) under-promotion entries.  The second stored value is the last group of columns as it stands; the
  first stored value is, for each p, the matrix of inner products of query rows with key rows over the 128 columns,
  times the scale literal.  With the joined operands read back into Wq, Wk, Wu and bq, bk, bu these are the two formulas
  the specification names.
-/
import proofs.«160570_j2216203125394_1_alg».proof.Proof.KTerms
import proofs.«160570_j2216203125394_1_alg».proof.Proof.Gen.KernelIdeal.Skeleton
import proofs.«160570_j2216203125394_1_alg».proof.Proof.Spec
import proofs.«160570_j2216203125394_1_alg».proof.Proof.KOperands
import proofs.«160570_j2216203125394_1_alg».proof.Proof.LibLayoutReads
import proofs.«160570_j2216203125394_1_alg».proof.Proof.LibPlainDot
import proofs.«160570_j2216203125394_1_alg».proof.Proof.LibBatchDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Facts₀

variable [Cert.KernelIdeal.Facts]

/-- The dense layer over the joined operands, at row s of block entry p and column c: the sum over the embedding axis
    plus the bias row's entry.  (Row 64·p + s of the flattened block is row s of entry p.) -/
theorem pay1_apply (x0 : Vec Ideal S32x64x1024 .f32) (w : Vec Ideal S1024x384 .f32) (β : Vec Ideal S1x384 .f32)
    (p : Fin 32) (s : Fin 64) (c : Fin 384) :
    Cert.KernelIdeal.Gen.k0_pay1 (F := Ideal) x0 w β (ix3 p s c)
      = (∑ d : Fin 1024, x0 (ix3 p s d) * w (ix2 d c)) + β (ix2 (0 : Fin 1) c) := by
  unfold Cert.KernelIdeal.Gen.k0_pay1
  refine (Cert.Lib.shapeCast_split_rows_apply _ shapeCasts_S2048x384_S32x64x384 p s c
    (⟨p.val * 64 + s.val, by omega⟩ : Fin 2048) rfl).trans ?_
  refine (addf_apply _ _ _).trans ?_
  refine congrArg₂ (· + ·) ?_ ?_
  · refine (Cert.Lib.matmul_plain_zero_apply (M := 2048) (K := 1024) (N := 384) none _ _ _ c).trans ?_
    refine Finset.sum_congr rfl fun d _ => congrArg₂ (· * ·) ?_ ?_
    · exact Cert.Lib.shapeCast_merge_rows_apply _ shapeCasts_S32x64x1024_S2048x1024
        p s d (⟨p.val * 64 + s.val, by omega⟩ : Fin 2048) rfl
    · exact congrFun (shapeCast_self w shapeCasts_S1024x384_S1024x384) (ix2 d c)
  · exact (broadcastTo_1b_ab_apply _ broadcasts_S1x384_S2048x384 _ c).trans
      (congrFun (shapeCast_self β shapeCasts_S1x384_S1x384) (ix2 (0 : Fin 1) c))

variable (x0 : Vec Ideal S32x64x1024 .f32)
variable (Wq Wk : FVec Ideal S1024x128 .f32) (Wu : FVec Ideal S1024x9 .f32)
variable (bq bk : FVec Ideal S128 .f32) (bu : FVec Ideal S9 .f32)

/-- The query entry: column q of the dense layer over the joined operands is the dense layer over Wq, bq. -/
theorem pay1_q (p : Fin 32) (s : Fin 64) (q : Fin 128) :
    Cert.KernelIdeal.Gen.k0_pay1 (F := Ideal) x0 (wAll Wq Wk Wu) (bAll bq bk bu) (ix3 p s ⟨q.val, by omega⟩)
      = (∑ d : Fin 1024, x0 (ix3 p s d) * Wq (ix2 d q)) + bq (ix1 q) :=
  (pay1_apply x0 _ _ p s _).trans
    (congrArg₂ (· + ·) (Finset.sum_congr rfl fun d _ => congrArg (x0 (ix3 p s d) * ·) (wAll_q Wq Wk Wu d q))
      (bAll_q bq bk bu q))

/-- The key entry: column 128 + q of the dense layer over the joined operands is the dense layer over Wk, bk. -/
theorem pay1_k (p : Fin 32) (s : Fin 64) (q : Fin 128) :
    Cert.KernelIdeal.Gen.k0_pay1 (F := Ideal) x0 (wAll Wq Wk Wu) (bAll bq bk bu) (ix3 p s ⟨128 + q.val, by omega⟩)
      = (∑ d : Fin 1024, x0 (ix3 p s d) * Wk (ix2 d q)) + bk (ix1 q) :=
  (pay1_apply x0 _ _ p s _).trans
    (congrArg₂ (· + ·) (Finset.sum_congr rfl fun d _ => congrArg (x0 (ix3 p s d) * ·) (wAll_k Wq Wk Wu d q))
      (bAll_k bq bk bu q))

/-- The under-promotion entry: column 256 + n of the dense layer over the joined operands is the dense layer over Wu, bu. -/
theorem pay1_u (p : Fin 32) (s : Fin 64) (n : Fin 9) :
    Cert.KernelIdeal.Gen.k0_pay1 (F := Ideal) x0 (wAll Wq Wk Wu) (bAll bq bk bu) (ix3 p s ⟨256 + n.val, by omega⟩)
      = (∑ d : Fin 1024, x0 (ix3 p s d) * Wu (ix2 d n)) + bu (ix1 n) :=
  (pay1_apply x0 _ _ p s _).trans
    (congrArg₂ (· + ·) (Finset.sum_congr rfl fun d _ => congrArg (x0 (ix3 p s d) * ·) (wAll_u Wq Wk Wu d n))
      (bAll_u bq bk bu n))

/-- The second stored value: the last 128 columns of the dense layer; its first nine are the under-promotion entries. -/
theorem pay2_apply (p : Fin 32) (s : Fin 64) (n : Fin 9) :
    Cert.KernelIdeal.Gen.k0_pay2 (F := Ideal) x0 (wAll Wq Wk Wu) (bAll bq bk bu) (ix3 p s ⟨n.val, by omega⟩)
      = (∑ d : Fin 1024, x0 (ix3 p s d) * Wu (ix2 d n)) + bu (ix1 n) := by
  unfold Cert.KernelIdeal.Gen.k0_pay2
  refine (Cert.Lib.slice3_axis2_apply 256 _ slices_S32x64x384_o0_0_256_S32x64x128 p s _
    (⟨256 + n.val, by omega⟩ : Fin 384) rfl).trans ?_
  exact pay1_u x0 Wq Wk Wu bq bk bu p s n

/-- The first stored value: for block entry p, the inner product over the 128 columns of query row f with key row t,
    times the scale literal. -/
theorem pay3_apply (p : Fin 32) (f t : Fin 64) :
    Cert.KernelIdeal.Gen.k0_pay3 (F := Ideal) x0 (wAll Wq Wk Wu) (bAll bq bk bu) (ix3 p f t)
      = (∑ q : Fin 128, ((∑ d : Fin 1024, x0 (ix3 p f d) * Wq (ix2 d q)) + bq (ix1 q))
            * ((∑ d : Fin 1024, x0 (ix3 p t d) * Wk (ix2 d q)) + bk (ix1 q))) * Cert.Spec.scale := by
  unfold Cert.KernelIdeal.Gen.k0_pay3
  refine (mulf_apply _ _ _).trans ?_
  refine congrArg₂ (· * ·) ?_ rfl
  refine (Cert.Lib.matmul_batchedRowsRows_zero_apply (B := 32) (M := 64) (N := 64) (K := 128)
    dot_S32x64x128_S32x64x128_S32x64x64_2_2_1_1_0_0_wf none _ _ p f t).trans ?_
  refine Finset.sum_congr rfl fun q _ => congrArg₂ (· * ·) ?_ ?_
  · refine (truncf_apply (φ := .f32) (ψ := .bf16) _ bitsLt_bf16_f32 _).trans ?_
    refine (Cert.Lib.slice3_axis2_apply 0 _ slices_S32x64x384_o0_0_0_S32x64x128 p f q
      (⟨q.val, by omega⟩ : Fin 384) (Nat.zero_add _).symm).trans ?_
    exact pay1_q x0 Wq Wk Wu bq bk bu p f q
  · refine (truncf_apply (φ := .f32) (ψ := .bf16) _ bitsLt_bf16_f32 _).trans ?_
    refine (Cert.Lib.slice3_axis2_apply 128 _ slices_S32x64x384_o0_0_128_S32x64x128 p t q
      (⟨128 + q.val, by omega⟩ : Fin 384) rfl).trans ?_
    exact pay1_k x0 Wq Wk Wu bq bk bu p t q

end Cert.KernelIdeal.Hand

end
-- ==== Proof.KBridge.lean ====
/-
  The two arrays the region leaves are the specification's: the stored value of a block of rows, read at a row of the
  block, is the scaled inner product of that row's query and key entries (and, for the second array's first nine
  columns, the under-promotion entry), because row p of block t of the input is row 32t + p of the input.
-/
import proofs.«160570_j2216203125394_1_alg».proof.Proof.KValue
import proofs.«160570_j2216203125394_1_alg».proof.Proof.KPay
import proofs.«160570_j2216203125394_1_alg».proof.Proof.Spec

noncomputable section

namespace Cert.KernelIdeal.Hand

open Idealize.ShloMosaic Idealize.ShloMosaic.ValueIdx
open Cert.KernelIdeal Cert.KernelIdeal.Facts₀

/-- Row b mod 32 of the block of rows b / 32 is row b. -/
theorem rowsBlock_apply (x : FVec Ideal S1024x64x1024 .f32) (b : Fin 1024) (s : Fin 64) (d : Fin 1024) :
    rowsBlock x ⟨b.val / 32, by omega⟩ (ix3 (⟨b.val % 32, Nat.mod_lt _ (by decide)⟩ : Fin 32) s d) = x (ix3 b s d) := by
  unfold rowsBlock
  refine congrArg x (funext fun a => ?_)
  match a with
  | ⟨0, _⟩ => exact Fin.ext (by show 32 * (b.val / 32) + b.val % 32 = b.val; omega)
  | ⟨1, _⟩ => rfl
  | ⟨2, _⟩ => rfl

variable (x : FVec Ideal S1024x64x1024 .f32)
variable (Wq Wk : FVec Ideal S1024x128 .f32) (Wu : FVec Ideal S1024x9 .f32)
variable (bq bk : FVec Ideal S128 .f32) (bu : FVec Ideal S9 .f32)

/-- The logits array the region leaves is the specification's logits. -/
theorem blockL_eq : blockL x (wAll Wq Wk Wu) (bAll bq bk bu) = Cert.Spec.logits x Wq bq Wk bk := by
  funext i
  obtain ⟨b, f, t, rfl⟩ : ∃ (b : Fin 1024) (f t : Fin 64), i = ix3 b f t := ⟨i 0, i 1, i 2, eq_ix3 i⟩
  rw [Cert.Spec.logits_apply]
  refine (pay3_apply (rowsBlock x ⟨b.val / 32, by omega⟩) Wq Wk Wu bq bk bu (⟨b.val % 32, Nat.mod_lt _ (by decide)⟩ : Fin 32) f t).trans ?_
  unfold Cert.Spec.logit Cert.Spec.proj
  simp only [rowsBlock_apply]

/-- The first nine columns of the second array the region leaves are the specification's under-promotion entries. -/
theorem sliceU_eq : extractStridedSlice S1024x64x9 ![0, 0, 0] (blockU x (wAll Wq Wk Wu) (bAll bq bk bu)) slices_S1024x64x128_S1024x64x9_0_0_0
    = Cert.Spec.ups x Wu bu := by
  funext i
  obtain ⟨b, s, n, rfl⟩ : ∃ (b : Fin 1024) (s : Fin 64) (n : Fin 9), i = ix3 b s n := ⟨i 0, i 1, i 2, eq_ix3 i⟩
  rw [Cert.Spec.ups_apply]
  refine (Cert.Lib.slice3_axis2_apply 0 _ slices_S1024x64x128_S1024x64x9_0_0_0 b s n (⟨n.val, by omega⟩ : Fin 128) (Nat.zero_add _).symm).trans ?_
  refine (pay2_apply (rowsBlock x ⟨b.val / 32, by omega⟩) Wq Wk Wu bq bk bu (⟨b.val % 32, Nat.mod_lt _ (by decide)⟩ : Fin 32) s n).trans ?_
  unfold Cert.Spec.proj
  simp only [rowsBlock_apply]

end Cert.KernelIdeal.Hand

end
-- ==== Proof.KRun.lean ====
/-
  The kernel's program at the ideal instance, run: the result buffer ends at tail of the constant tables, the
  specification's logits and the specification's under-promotion entries of the argument arrays, and the arguments end
  as launched.
-/
import proofs.«160570_j2216203125394_1_alg».proof.Proof.KTail
import proofs.«160570_j2216203125394_1_alg».proof.Proof.KBridge

noncomputable section

namespace Cert.KernelIdeal.Hand

open Idealize.ShloMosaic Idealize.ShloMosaic.TcCoe
open Idealize.SL Idealize.SL.Sem
open Cert.KernelIdeal Cert.KernelIdeal.Facts₀

variable (m : (ℓ : Loc nD τ sig) → Buf (Elt Ideal) ℓ) (ρ : Dev nD → PrngReg)

/-- What the result buffer holds after the run, as a function of the launch memory. -/
def result (c : Dev nD) : FVec Ideal S1024x4672 .f32 :=
  tail (fun i => lit0 (S64x64.rowMajor i)) (fun i => lit1 (S64x64.rowMajor i)) (fun i => lit2 (S64.rowMajor i))
    (Cert.Spec.logits (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)))
    (Cert.Spec.ups (m ((c.tc : Thread nD τ).loc main_arg0)) (m ((c.tc : Thread nD τ).loc main_arg5)) (m ((c.tc : Thread nD τ).loc main_arg6)))

theorem result_spec (c : Dev nD) :
    Pipeline.afterTail₀ cfgs (dats m) 0 (V0 m) [Gen.hostOps1, Gen.hostOps1_1, Gen.hostOps1_2, Gen.hostOps1_3, Gen.hostOps1_4, Gen.hostOps1_5, Gen.hostOps1_6] c main_v15
      = result m c := by
  rw [result_eq m c _ _ (finalL m c) (finalU m c), V_weights, V_biases, blockL_eq, sliceU_eq]
  rfl

theorem run : θ_run (defs (F := Ideal)) (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v15 (Pipeline.mem_restRefs_of main_v15 (by decide) (by decide))).trans (result_spec m c),
     ((h c).1 0).trans (((dats m 0 c).arrAt_in 0 rfl _).trans ((A_eq m c 0).trans (V_arg0 m c))),
     ((h c).2 main_arg1 (Pipeline.mem_restRefs_of main_arg1 (by decide) (by decide))).trans (W_arg1 m c),
     ((h c).2 main_arg2 (Pipeline.mem_restRefs_of main_arg2 (by decide) (by decide))).trans (W_arg2 m c),
     ((h c).2 main_arg3 (Pipeline.mem_restRefs_of main_arg3 (by decide) (by decide))).trans (W_arg3 m c),
     ((h c).2 main_arg4 (Pipeline.mem_restRefs_of main_arg4 (by decide) (by decide))).trans (W_arg4 m c),
     ((h c).2 main_arg5 (Pipeline.mem_restRefs_of main_arg5 (by decide) (by decide))).trans (W_arg5 m c),
     ((h c).2 main_arg6 (Pipeline.mem_restRefs_of main_arg6 (by decide) (by decide))).trans (W_arg6 m c)⟩) (run_main m ρ)

end Cert.KernelIdeal.Hand

end
-- ==== Proof.RefOps.lean ====
/-
  The reference program as a list of operations, and its run over that list.

  The reference is a straight line of array operations: three dense layers of the input (queries, keys and the
  under-promotion columns), the query–key products scaled, then a fixed re-indexing of each 64×64 square by a table
  of positions (a gather along the last axis, with the usual wrap of negative positions and the out-of-range guard),
  two maskings by fixed boolean tables (a masked entry becomes the literal -1e9), the two blocks laid side by side
  along the last axis (64 + 9 = 73 columns) and the result flattened to 1024 × 4672.

  `ops` lists the operations in order, the three outlined functions' bodies written at their call sites over the
  buffers each call names; `opsDense`, `opsTake`, `opsMask`, `opsJoin` are the same list cut in four. `run_main`: every
  execution ends with each buffer at the fold of the operations over the launch contents; `args_eq`: that fold
  leaves the seven arguments as they were.
-/
import proofs.«160570_j2216203125394_1_alg».proof.ReferenceIdeal
import proofs.«160570_j2216203125394_1_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable [Cert.ReferenceIdeal.Facts]

/-! ## The program as a list of operations -/

variable {F : FTy → Type} [FloatOps F]

/-- The program's 55 operations in order: @main's own twenty-seven, and at each of the three calls the callee's body
    over the buffers that call names — the gather along the last axis (twenty-two operations), and the two maskings
    (three each). -/
abbrev ops : List (HloOp τ sig (Elt F)) :=
  [ nullary main_c (fun i => lit0 (S64x64.rowMajor i)),
    nullary main_c_0 (fun i => lit1 (S64x64.rowMajor i)),
    nullary main_c_1 (fun i => lit2 (S64.rowMajor i)),
    binary main_arg0 main_arg1 main_v0 ((fun l r => Host.dotGeneral dot_S1024x64x1024_S1024x128_S1024x64x128_2_0_01_1_n_n none l r) : (⟨S1024x64x1024, .f32⟩ : BufTy).Contents (Elt F) → (⟨S1024x128, .f32⟩ : BufTy).Contents (Elt F) → (⟨S1024x64x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S1024x64x128 ![0, 1, 2] bcast_S1x1x128_S1024x64x128_0_1_2 : (⟨S1x1x128, .f32⟩ : BufTy).Contents (Elt F) → (⟨S1024x64x128, .f32⟩ : BufTy).Contents (Elt F)),
    binary main_v0 main_v2 main_v3 (addf : (⟨S1024x64x128, .f32⟩ : BufTy).Contents (Elt F) → (⟨S1024x64x128, .f32⟩ : BufTy).Contents (Elt F) → (⟨S1024x64x128, .f32⟩ : BufTy).Contents (Elt F)),
    binary main_arg0 main_arg3 main_v4 ((fun l r => Host.dotGeneral dot_S1024x64x1024_S1024x128_S1024x64x128_2_0_01_1_n_n none l r) : (⟨S1024x64x1024, .f32⟩ : BufTy).Contents (Elt F) → (⟨S1024x128, .f32⟩ : BufTy).Contents (Elt F) → (⟨S1024x64x128, .f32⟩ : BufTy).Contents (Elt F)),
    unary main_arg4 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S1024x64x128 ![0, 1, 2] bcast_S1x1x128_S1024x64x128_0_1_2 : (⟨S1x1x128, .f32⟩ : BufTy).Contents (Elt F) → (⟨S1024x64x128, .f32⟩ : BufTy).Contents (Elt F)),
    binary main_v4 main_v6 main_v7 (addf : (⟨S1024x64x128, .f32⟩ : BufTy).Contents (Elt F) → (⟨S1024x64x128, .f32⟩ : BufTy).Contents (Elt F) → (⟨S1024x64x128, .f32⟩ : BufTy).Contents (Elt F)),
    binary main_v3 main_v7 main_v8 ((fun l r => Host.dotGeneral dot_S1024x64x128_S1024x64x128_S1024x64x64_2_2_1_1_0_0 none l r) : (⟨S1024x64x128, .f32⟩ : BufTy).Contents (Elt F) → (⟨S1024x64x128, .f32⟩ : BufTy).Contents (Elt F) → (⟨S1024x64x64, .f32⟩ : BufTy).Contents (Elt F)),
    nullary main_cst (constant S_ .f32 0x3DB504F3#32),
    unary main_cst main_v9 (broadcastInDim S1024x64x64 ![] bcast_S_S1024x64x64 : (⟨S_, .f32⟩ : BufTy).Contents (Elt F) → (⟨S1024x64x64, .f32⟩ : BufTy).Contents (Elt F)),
    binary main_v8 main_v9 main_v10 (mulf : (⟨S1024x64x64, .f32⟩ : BufTy).Contents (Elt F) → (⟨S1024x64x64, .f32⟩ : BufTy).Contents (Elt F) → (⟨S1024x64x64, .f32⟩ : BufTy).Contents (Elt F)),
    unary main_c main_v11 (broadcastInDim S1x64x64 ![1, 2] bcast_S64x64_S1x64x64_1_2 : (⟨S64x64, .i32⟩ : BufTy).Contents (Elt F) → (⟨S1x64x64, .i32⟩ : BufTy).Contents (Elt F)),
    unary main_v11 main_v12 (broadcastInDim S1024x64x64 ![0, 1, 2] bcast_S1x64x64_S1024x64x64_0_1_2 : (⟨S1x64x64, .i32⟩ : BufTy).Contents (Elt F) → (⟨S1024x64x64, .i32⟩ : BufTy).Contents (Elt F)),
    TRef.nullary main_call0.c (constantI S_ 32 0#32),
    TRef.unary main_call0.c main_call0.v0 (broadcastInDim S1024x64x64 ![] bcast_S_S1024x64x64),
    TRef.binary (.of main_v12 : TRef sig ⟨S1024x64x64, .i32⟩) main_call0.v0 main_call0.v1 (cmpi .slt),
    TRef.nullary main_call0.c_0 (constantI S_ 32 64#32),
    TRef.unary main_call0.c_0 main_call0.v2 (broadcastInDim S1024x64x64 ![] bcast_S_S1024x64x64),
    TRef.binary (.of main_v12 : TRef sig ⟨S1024x64x64, .i32⟩) main_call0.v2 main_call0.v3 addi,
    TRef.ternary main_call0.v1 main_call0.v3 (.of main_v12 : TRef sig ⟨S1024x64x64, .i32⟩) main_call0.v4 select,
    TRef.reshape main_call0.v4 main_call0.v5 rfl shapeCasts_S1024x64x64_S1024x64x64x1,
    TRef.nullary main_call0.c_1 (constantI S1 32 63#32),
    TRef.nullary main_call0.c_2 (constantI S_ 32 0#32),
    TRef.unary main_call0.c_2 main_call0.v6 (broadcastInDim S1024x64x64x1 ![] bcast_S_S1024x64x64x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S1024x64x64x1 ![0, 1, 2, 3] bcast_S1x1x1x1_S1024x64x64x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x64x64x1_S1024x64x64_d3 h_S_),
    TRef.binary (.of main_v10 : TRef sig ⟨S1024x64x64, .f32⟩) main_call0.v5 main_call0.v13 (fun x i => Host.gather gather_S1024x64x64_S1024x64x64x1_S1024x64x64_n_2_01_01_2_3_111 x i),
    TRef.nullary main_call0.cst (constant S_ .f32 0x7FC00000#32),
    TRef.unary main_call0.cst main_call0.v14 (broadcastInDim S1024x64x64 ![] bcast_S_S1024x64x64),
    TRef.ternary main_call0.v12 main_call0.v13 main_call0.v14 main_call0.v15 select,
    unary main_c_0 main_v14 (broadcastInDim S1x64x64 ![1, 2] bcast_S64x64_S1x64x64_1_2 : (⟨S64x64, .i1⟩ : BufTy).Contents (Elt F) → (⟨S1x64x64, .i1⟩ : BufTy).Contents (Elt F)),
    nullary main_cst_2 (constant S_ .f32 0xCE6E6B28#32),
    TRef.unary (.of main_v14 : TRef sig ⟨S1x64x64, .i1⟩) main_call1.v0 (broadcastInDim S1024x64x64 ![0, 1, 2] bcast_S1x64x64_S1024x64x64_0_1_2),
    TRef.unary (.of main_cst_2 : TRef sig ⟨S_, .f32⟩) main_call1.v1 (broadcastInDim S1024x64x64 ![] bcast_S_S1024x64x64),
    TRef.ternary main_call1.v0 (.of main_v13 : TRef sig ⟨S1024x64x64, .f32⟩) main_call1.v1 main_call1.v2 select,
    binary main_arg0 main_arg5 main_v16 ((fun l r => Host.dotGeneral dot_S1024x64x1024_S1024x9_S1024x64x9_2_0_01_1_n_n none l r) : (⟨S1024x64x1024, .f32⟩ : BufTy).Contents (Elt F) → (⟨S1024x9, .f32⟩ : BufTy).Contents (Elt F) → (⟨S1024x64x9, .f32⟩ : BufTy).Contents (Elt F)),
    unary main_arg6 main_v17 (broadcastInDim S1x1x9 ![2] bcast_S9_S1x1x9_2 : (⟨S9, .f32⟩ : BufTy).Contents (Elt F) → (⟨S1x1x9, .f32⟩ : BufTy).Contents (Elt F)),
    unary main_v17 main_v18 (broadcastInDim S1024x64x9 ![0, 1, 2] bcast_S1x1x9_S1024x64x9_0_1_2 : (⟨S1x1x9, .f32⟩ : BufTy).Contents (Elt F) → (⟨S1024x64x9, .f32⟩ : BufTy).Contents (Elt F)),
    binary main_v16 main_v18 main_v19 (addf : (⟨S1024x64x9, .f32⟩ : BufTy).Contents (Elt F) → (⟨S1024x64x9, .f32⟩ : BufTy).Contents (Elt F) → (⟨S1024x64x9, .f32⟩ : BufTy).Contents (Elt F)),
    unary main_c_1 main_v20 (broadcastInDim S1x64x1 ![1] bcast_S64_S1x64x1_1 : (⟨S64, .i1⟩ : BufTy).Contents (Elt F) → (⟨S1x64x1, .i1⟩ : BufTy).Contents (Elt F)),
    nullary main_cst_3 (constant S_ .f32 0xCE6E6B28#32),
    TRef.unary (.of main_v20 : TRef sig ⟨S1x64x1, .i1⟩) main_call2.v0 (broadcastInDim S1024x64x9 ![0, 1, 2] bcast_S1x64x1_S1024x64x9_0_1_2),
    TRef.unary (.of main_cst_3 : TRef sig ⟨S_, .f32⟩) main_call2.v1 (broadcastInDim S1024x64x9 ![] bcast_S_S1024x64x9),
    TRef.ternary main_call2.v0 (.of main_v19 : TRef sig ⟨S1024x64x9, .f32⟩) main_call2.v1 main_call2.v2 select,
    binary main_v15 main_v21 main_v22 ((fun a b => concatenate S1024x64x73 2 [⟨S1024x64x64, a⟩, ⟨S1024x64x9, b⟩] concatenates_S1024x64x64_S1024x64x9_S1024x64x73_d2) : (⟨S1024x64x64, .f32⟩ : BufTy).Contents (Elt F) → (⟨S1024x64x9, .f32⟩ : BufTy).Contents (Elt F) → (⟨S1024x64x73, .f32⟩ : BufTy).Contents (Elt F)),
    reshape main_v22 main_v23 rfl shapeCasts_S1024x64x73_S1024x4672 ]

/-- The first seventeen operations: the three literal tables, the query and key layers, their scaled products, and the
    position table broadcast over the batch. -/
abbrev opsDense : List (HloOp τ sig (Elt F)) :=
  [ nullary main_c (fun i => lit0 (S64x64.rowMajor i)),
    nullary main_c_0 (fun i => lit1 (S64x64.rowMajor i)),
    nullary main_c_1 (fun i => lit2 (S64.rowMajor i)),
    binary main_arg0 main_arg1 main_v0 ((fun l r => Host.dotGeneral dot_S1024x64x1024_S1024x128_S1024x64x128_2_0_01_1_n_n none l r) : (⟨S1024x64x1024, .f32⟩ : BufTy).Contents (Elt F) → (⟨S1024x128, .f32⟩ : BufTy).Contents (Elt F) → (⟨S1024x64x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S1024x64x128 ![0, 1, 2] bcast_S1x1x128_S1024x64x128_0_1_2 : (⟨S1x1x128, .f32⟩ : BufTy).Contents (Elt F) → (⟨S1024x64x128, .f32⟩ : BufTy).Contents (Elt F)),
    binary main_v0 main_v2 main_v3 (addf : (⟨S1024x64x128, .f32⟩ : BufTy).Contents (Elt F) → (⟨S1024x64x128, .f32⟩ : BufTy).Contents (Elt F) → (⟨S1024x64x128, .f32⟩ : BufTy).Contents (Elt F)),
    binary main_arg0 main_arg3 main_v4 ((fun l r => Host.dotGeneral dot_S1024x64x1024_S1024x128_S1024x64x128_2_0_01_1_n_n none l r) : (⟨S1024x64x1024, .f32⟩ : BufTy).Contents (Elt F) → (⟨S1024x128, .f32⟩ : BufTy).Contents (Elt F) → (⟨S1024x64x128, .f32⟩ : BufTy).Contents (Elt F)),
    unary main_arg4 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S1024x64x128 ![0, 1, 2] bcast_S1x1x128_S1024x64x128_0_1_2 : (⟨S1x1x128, .f32⟩ : BufTy).Contents (Elt F) → (⟨S1024x64x128, .f32⟩ : BufTy).Contents (Elt F)),
    binary main_v4 main_v6 main_v7 (addf : (⟨S1024x64x128, .f32⟩ : BufTy).Contents (Elt F) → (⟨S1024x64x128, .f32⟩ : BufTy).Contents (Elt F) → (⟨S1024x64x128, .f32⟩ : BufTy).Contents (Elt F)),
    binary main_v3 main_v7 main_v8 ((fun l r => Host.dotGeneral dot_S1024x64x128_S1024x64x128_S1024x64x64_2_2_1_1_0_0 none l r) : (⟨S1024x64x128, .f32⟩ : BufTy).Contents (Elt F) → (⟨S1024x64x128, .f32⟩ : BufTy).Contents (Elt F) → (⟨S1024x64x64, .f32⟩ : BufTy).Contents (Elt F)),
    nullary main_cst (constant S_ .f32 0x3DB504F3#32),
    unary main_cst main_v9 (broadcastInDim S1024x64x64 ![] bcast_S_S1024x64x64 : (⟨S_, .f32⟩ : BufTy).Contents (Elt F) → (⟨S1024x64x64, .f32⟩ : BufTy).Contents (Elt F)),
    binary main_v8 main_v9 main_v10 (mulf : (⟨S1024x64x64, .f32⟩ : BufTy).Contents (Elt F) → (⟨S1024x64x64, .f32⟩ : BufTy).Contents (Elt F) → (⟨S1024x64x64, .f32⟩ : BufTy).Contents (Elt F)),
    unary main_c main_v11 (broadcastInDim S1x64x64 ![1, 2] bcast_S64x64_S1x64x64_1_2 : (⟨S64x64, .i32⟩ : BufTy).Contents (Elt F) → (⟨S1x64x64, .i32⟩ : BufTy).Contents (Elt F)),
    unary main_v11 main_v12 (broadcastInDim S1024x64x64 ![0, 1, 2] bcast_S1x64x64_S1024x64x64_0_1_2 : (⟨S1x64x64, .i32⟩ : BufTy).Contents (Elt F) → (⟨S1024x64x64, .i32⟩ : BufTy).Contents (Elt F)) ]

/-- The next twenty-two: the gather along the last axis, its index preparation and its out-of-range guard. -/
abbrev opsTake : List (HloOp τ sig (Elt F)) :=
  [ TRef.nullary main_call0.c (constantI S_ 32 0#32),
    TRef.unary main_call0.c main_call0.v0 (broadcastInDim S1024x64x64 ![] bcast_S_S1024x64x64),
    TRef.binary (.of main_v12 : TRef sig ⟨S1024x64x64, .i32⟩) main_call0.v0 main_call0.v1 (cmpi .slt),
    TRef.nullary main_call0.c_0 (constantI S_ 32 64#32),
    TRef.unary main_call0.c_0 main_call0.v2 (broadcastInDim S1024x64x64 ![] bcast_S_S1024x64x64),
    TRef.binary (.of main_v12 : TRef sig ⟨S1024x64x64, .i32⟩) main_call0.v2 main_call0.v3 addi,
    TRef.ternary main_call0.v1 main_call0.v3 (.of main_v12 : TRef sig ⟨S1024x64x64, .i32⟩) main_call0.v4 select,
    TRef.reshape main_call0.v4 main_call0.v5 rfl shapeCasts_S1024x64x64_S1024x64x64x1,
    TRef.nullary main_call0.c_1 (constantI S1 32 63#32),
    TRef.nullary main_call0.c_2 (constantI S_ 32 0#32),
    TRef.unary main_call0.c_2 main_call0.v6 (broadcastInDim S1024x64x64x1 ![] bcast_S_S1024x64x64x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S1024x64x64x1 ![0, 1, 2, 3] bcast_S1x1x1x1_S1024x64x64x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x64x64x1_S1024x64x64_d3 h_S_),
    TRef.binary (.of main_v10 : TRef sig ⟨S1024x64x64, .f32⟩) main_call0.v5 main_call0.v13 (fun x i => Host.gather gather_S1024x64x64_S1024x64x64x1_S1024x64x64_n_2_01_01_2_3_111 x i),
    TRef.nullary main_call0.cst (constant S_ .f32 0x7FC00000#32),
    TRef.unary main_call0.cst main_call0.v14 (broadcastInDim S1024x64x64 ![] bcast_S_S1024x64x64),
    TRef.ternary main_call0.v12 main_call0.v13 main_call0.v14 main_call0.v15 select ]

/-- The next fourteen: the first masking, the under-promotion layer, and its masking. -/
abbrev opsMask : List (HloOp τ sig (Elt F)) :=
  [ unary main_c_0 main_v14 (broadcastInDim S1x64x64 ![1, 2] bcast_S64x64_S1x64x64_1_2 : (⟨S64x64, .i1⟩ : BufTy).Contents (Elt F) → (⟨S1x64x64, .i1⟩ : BufTy).Contents (Elt F)),
    nullary main_cst_2 (constant S_ .f32 0xCE6E6B28#32),
    TRef.unary (.of main_v14 : TRef sig ⟨S1x64x64, .i1⟩) main_call1.v0 (broadcastInDim S1024x64x64 ![0, 1, 2] bcast_S1x64x64_S1024x64x64_0_1_2),
    TRef.unary (.of main_cst_2 : TRef sig ⟨S_, .f32⟩) main_call1.v1 (broadcastInDim S1024x64x64 ![] bcast_S_S1024x64x64),
    TRef.ternary main_call1.v0 (.of main_v13 : TRef sig ⟨S1024x64x64, .f32⟩) main_call1.v1 main_call1.v2 select,
    binary main_arg0 main_arg5 main_v16 ((fun l r => Host.dotGeneral dot_S1024x64x1024_S1024x9_S1024x64x9_2_0_01_1_n_n none l r) : (⟨S1024x64x1024, .f32⟩ : BufTy).Contents (Elt F) → (⟨S1024x9, .f32⟩ : BufTy).Contents (Elt F) → (⟨S1024x64x9, .f32⟩ : BufTy).Contents (Elt F)),
    unary main_arg6 main_v17 (broadcastInDim S1x1x9 ![2] bcast_S9_S1x1x9_2 : (⟨S9, .f32⟩ : BufTy).Contents (Elt F) → (⟨S1x1x9, .f32⟩ : BufTy).Contents (Elt F)),
    unary main_v17 main_v18 (broadcastInDim S1024x64x9 ![0, 1, 2] bcast_S1x1x9_S1024x64x9_0_1_2 : (⟨S1x1x9, .f32⟩ : BufTy).Contents (Elt F) → (⟨S1024x64x9, .f32⟩ : BufTy).Contents (Elt F)),
    binary main_v16 main_v18 main_v19 (addf : (⟨S1024x64x9, .f32⟩ : BufTy).Contents (Elt F) → (⟨S1024x64x9, .f32⟩ : BufTy).Contents (Elt F) → (⟨S1024x64x9, .f32⟩ : BufTy).Contents (Elt F)),
    unary main_c_1 main_v20 (broadcastInDim S1x64x1 ![1] bcast_S64_S1x64x1_1 : (⟨S64, .i1⟩ : BufTy).Contents (Elt F) → (⟨S1x64x1, .i1⟩ : BufTy).Contents (Elt F)),
    nullary main_cst_3 (constant S_ .f32 0xCE6E6B28#32),
    TRef.unary (.of main_v20 : TRef sig ⟨S1x64x1, .i1⟩) main_call2.v0 (broadcastInDim S1024x64x9 ![0, 1, 2] bcast_S1x64x1_S1024x64x9_0_1_2),
    TRef.unary (.of main_cst_3 : TRef sig ⟨S_, .f32⟩) main_call2.v1 (broadcastInDim S1024x64x9 ![] bcast_S_S1024x64x9),
    TRef.ternary main_call2.v0 (.of main_v19 : TRef sig ⟨S1024x64x9, .f32⟩) main_call2.v1 main_call2.v2 select ]

/-- The last two: the concatenation along the last axis and the flattening. -/
abbrev opsJoin : List (HloOp τ sig (Elt F)) :=
  [ binary main_v15 main_v21 main_v22 ((fun a b => concatenate S1024x64x73 2 [⟨S1024x64x64, a⟩, ⟨S1024x64x9, b⟩] concatenates_S1024x64x64_S1024x64x9_S1024x64x73_d2) : (⟨S1024x64x64, .f32⟩ : BufTy).Contents (Elt F) → (⟨S1024x64x9, .f32⟩ : BufTy).Contents (Elt F) → (⟨S1024x64x73, .f32⟩ : BufTy).Contents (Elt F)),
    reshape main_v22 main_v23 rfl shapeCasts_S1024x64x73_S1024x4672 ]

/-- The list is its four parts in order. -/
theorem ops_split : (ops : List (HloOp τ sig (Elt F))) = opsDense ++ (opsTake ++ (opsMask ++ opsJoin)) := rfl

/-- The fold over two lists in a row is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

-- fifty-five binds re-associated: the rewrite under the chain recurses once per statement
set_option maxRecDepth 2048 in
/-- @main is that straight line: the three functions' definitions unfolded at their calls, both sides are one chain
    of steps once sequencing is re-associated. -/
theorem main_eq (c : Dev nD) : main (F := F) c = seq ops := by
  simp only [main, fn_take_along_axis.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., binary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., ternary_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., unary_bufs_sub .., nullary_bufs_sub .., unary_bufs_sub ..,
    unary_bufs_sub .., ternary_bufs_sub .., binary_bufs_sub .., unary_bufs_sub .., unary_bufs_sub .., binary_bufs_sub ..,
    unary_bufs_sub .., nullary_bufs_sub .., unary_bufs_sub .., unary_bufs_sub .., ternary_bufs_sub .., binary_bufs_sub ..,
    reshape_bufs_sub ..⟩

/-- Every weakly fair execution of @main terminates, and every final state has each buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes an argument's buffer. -/
theorem args_eq (V : Valuation τ sig (Elt F)) :
    after (ops (F := F)) V (main_arg0 : DevRef τ sig) = V (main_arg0 : DevRef τ sig)
    ∧ after (ops (F := F)) V (main_arg1 : DevRef τ sig) = V (main_arg1 : DevRef τ sig)
    ∧ after (ops (F := F)) V (main_arg2 : DevRef τ sig) = V (main_arg2 : DevRef τ sig)
    ∧ after (ops (F := F)) V (main_arg3 : DevRef τ sig) = V (main_arg3 : DevRef τ sig)
    ∧ after (ops (F := F)) V (main_arg4 : DevRef τ sig) = V (main_arg4 : DevRef τ sig)
    ∧ after (ops (F := F)) V (main_arg5 : DevRef τ sig) = V (main_arg5 : DevRef τ sig)
    ∧ after (ops (F := F)) V (main_arg6 : DevRef τ sig) = V (main_arg6 : DevRef τ sig) := by
  refine ⟨?_, ?_, ?_, ?_, ?_, ?_, ?_⟩ <;> after_results_simp

end Cert.ReferenceIdeal.Hand

end
-- ==== Proof.RefTerms.lean ====
/-
  The reference's three dense layers and its logits, as the compositions of the pure operations its program prints.

  refQ x W β is x·W + β over the embedding axis (a contraction of axis 2 of x with axis 0 of W, the bias broadcast over
  batch entries and squares); refL is the batched product of the query rows with the key rows, times the scale literal;
  refU is the under-promotion layer.
-/
import proofs.«160570_j2216203125394_1_alg».proof.ReferenceIdeal
import Idealize.ShloMosaic.PureOps.Ideal

noncomputable section

namespace Cert.ReferenceIdeal.Hand

open Idealize.ShloMosaic Cert.ReferenceIdeal Cert.ReferenceIdeal.Facts₀

variable [Cert.ReferenceIdeal.Facts]

/-- A dense layer into 128 columns: x·W + β. -/
def refQ (x : FVec Ideal S1024x64x1024 .f32) (W : FVec Ideal S1024x128 .f32) (β : FVec Ideal S128 .f32) :
    FVec Ideal S1024x64x128 .f32 :=
  addf (Host.dotGeneral dot_S1024x64x1024_S1024x128_S1024x64x128_2_0_01_1_n_n none x W)
    (broadcastInDim S1024x64x128 ![0, 1, 2] bcast_S1x1x128_S1024x64x128_0_1_2
      (broadcastInDim S1x1x128 ![2] bcast_S128_S1x1x128_2 β))

/-- The logits: per batch entry, query rows against key rows, scaled. -/
def refL (x : FVec Ideal S1024x64x1024 .f32) (Wq : FVec Ideal S1024x128 .f32) (bq : FVec Ideal S128 .f32)
    (Wk : FVec Ideal S1024x128 .f32) (bk : FVec Ideal S128 .f32) : FVec Ideal S1024x64x64 .f32 :=
  mulf (Host.dotGeneral dot_S1024x64x128_S1024x64x128_S1024x64x64_2_2_1_1_0_0 none (refQ x Wq bq) (refQ x Wk bk))
    (broadcastInDim S1024x64x64 ![] bcast_S_S1024x64x64 (constant (F := Ideal) S_ .f32 0x3DB504F3#32))

/-- The under-promotion layer into 9 columns: x·Wu + bu. -/
def refU (x : FVec Ideal S1024x64x1024 .f32) (Wu : FVec Ideal S1024x9 .f32) (bu : FVec Ideal S9 .f32) :
    FVec Ideal S1024x64x9 .f32 :=
  addf (Host.dotGeneral dot_S1024x64x1024_S1024x9_S1024x64x9_2_0_01_1_n_n none x Wu)
    (broadcastInDim S1024x64x9 ![0, 1, 2] bcast_S1x1x9_S1024x64x9_0_1_2
      (broadcastInDim S1x1x9 ![2] bcast_S9_S1x1x9_2 bu))

end Cert.ReferenceIdeal.Hand

end
-- ==== Proof.RefTail.lean ====
/-
  The host lines the reference applies to its logits and under-promotion columns, as one pure function.
-/
import proofs.«160570_j2216203125394_1_alg».proof.ReferenceIdeal
import Idealize.ShloMosaic.PureOps.Ideal

noncomputable section

namespace Cert.ReferenceIdeal.Hand

open Idealize.ShloMosaic Cert.ReferenceIdeal Cert.ReferenceIdeal.Facts₀

variable [Cert.ReferenceIdeal.Facts]

/-- The gather along the last axis: entry (b, f, j) of the result is L at (b, f, idx (b, f, j)), through the printed
    steps — an index below zero is first shifted up by 64, the library gather of single elements reads L at the index,
    and where the index is outside 0 … 63 the printed fill value is put instead.  Never opened. -/
def takeAlong (L : FVec Ideal S1024x64x64 .f32) (idx : IVec S1024x64x64 32) : FVec Ideal S1024x64x64 .f32 :=
  let z : IVec S1024x64x64 32 := broadcastInDim S1024x64x64 ![] bcast_S_S1024x64x64 (constantI S_ 32 0#32)
  let isNeg : IVec S1024x64x64 1 := cmpi .slt idx z
  let n64 : IVec S1024x64x64 32 := broadcastInDim S1024x64x64 ![] bcast_S_S1024x64x64 (constantI S_ 32 64#32)
  let wrapped : IVec S1024x64x64 32 := addi idx n64
  let idx' : IVec S1024x64x64 32 := select isNeg wrapped idx
  let idx4 : IVec S1024x64x64x1 32 := shapeCast S1024x64x64x1 idx' shapeCasts_S1024x64x64_S1024x64x64x1
  let z4 : IVec S1024x64x64x1 32 := broadcastInDim S1024x64x64x1 ![] bcast_S_S1024x64x64x1 (constantI S_ 32 0#32)
  let ge : IVec S1024x64x64x1 1 := cmpi .sge idx4 z4
  let hi1 : IVec S1x1x1x1 32 := broadcastInDim S1x1x1x1 ![3] bcast_S1_S1x1x1x1_3 (constantI S1 32 63#32)
  let hi : IVec S1024x64x64x1 32 := broadcastInDim S1024x64x64x1 ![0, 1, 2, 3] bcast_S1x1x1x1_S1024x64x64x1_0_1_2_3 hi1
  let le : IVec S1024x64x64x1 1 := cmpi .sle idx4 hi
  let inr4 : IVec S1024x64x64x1 1 := andi ge le
  let inr : IVec S1024x64x64 1 := Host.reduce IntOp.andi inr4 (constantI S_ 1 1#1) reducesTo_S1024x64x64x1_S1024x64x64_d3 h_S_
  let got : FVec Ideal S1024x64x64 .f32 := Host.gather gather_S1024x64x64_S1024x64x64x1_S1024x64x64_n_2_01_01_2_3_111 L idx4
  let fill : FVec Ideal S1024x64x64 .f32 := broadcastInDim S1024x64x64 ![] bcast_S_S1024x64x64 (constant (F := Ideal) S_ .f32 0x7FC00000#32)
  select inr got fill

/-- Everything the program does to the logits L and the nine under-promotion columns U after they are computed, as one
    pure function: the table of to-squares t0, broadcast over batch entries, gathers along the last axis of L; the
    gathered logits are kept where the validity table t1 is set and replaced by the printed literal elsewhere; U is
    kept on the squares the table t2 marks and replaced by the literal elsewhere; the two are joined along the last
    axis and the result laid out as 1024 rows of 64 · 73 entries.  It is never opened: both programs apply it, so only
    its arguments are compared. -/
def tail (t0 : IVec S64x64 32) (t1 : IVec S64x64 1) (t2 : IVec S64 1)
    (L : FVec Ideal S1024x64x64 .f32) (U : FVec Ideal S1024x64x9 .f32) : FVec Ideal S1024x4672 .f32 :=
  let idx : IVec S1024x64x64 32 := broadcastInDim S1024x64x64 ![0, 1, 2] bcast_S1x64x64_S1024x64x64_0_1_2
    (broadcastInDim S1x64x64 ![1, 2] bcast_S64x64_S1x64x64_1_2 t0)
  let valid : IVec S1024x64x64 1 := broadcastInDim S1024x64x64 ![0, 1, 2] bcast_S1x64x64_S1024x64x64_0_1_2
    (broadcastInDim S1x64x64 ![1, 2] bcast_S64x64_S1x64x64_1_2 t1)
  let off : FVec Ideal S1024x64x64 .f32 := broadcastInDim S1024x64x64 ![] bcast_S_S1024x64x64 (constant (F := Ideal) S_ .f32 0xCE6E6B28#32)
  let masked : FVec Ideal S1024x64x64 .f32 := select valid (takeAlong L idx) off
  let promo : IVec S1024x64x9 1 := broadcastInDim S1024x64x9 ![0, 1, 2] bcast_S1x64x1_S1024x64x9_0_1_2
    (broadcastInDim S1x64x1 ![1] bcast_S64_S1x64x1_1 t2)
  let offU : FVec Ideal S1024x64x9 .f32 := broadcastInDim S1024x64x9 ![] bcast_S_S1024x64x9 (constant (F := Ideal) S_ .f32 0xCE6E6B28#32)
  let maskedU : FVec Ideal S1024x64x9 .f32 := select promo U offU
  shapeCast S1024x4672
    (concatenate S1024x64x73 2 [⟨S1024x64x64, masked⟩, ⟨S1024x64x9, maskedU⟩] concatenates_S1024x64x64_S1024x64x9_S1024x64x73_d2)
    shapeCasts_S1024x64x73_S1024x4672

end Cert.ReferenceIdeal.Hand

end
-- ==== Proof.RefRun.lean ====
/-
  The reference's run, read back.

  `run`: every execution of the reference ends with the result buffer at `tail` (everything after the dense layers,
  as one pure function) of the three literal tables and the dense layers `refL`, `refU` of the arguments, and the
  arguments unchanged. The fold of the operations (`run_main`) is read at the result buffer one stretch of the list
  at a time, from any contents `X` before the stretch: the tables, dense layers and index broadcast; the gather along
  the last axis (`takeAlong`); the two maskings; the concatenation and flattening.
-/
import proofs.«160570_j2216203125394_1_alg».proof.Proof.RefOps
import proofs.«160570_j2216203125394_1_alg».proof.Proof.RefTerms
import proofs.«160570_j2216203125394_1_alg».proof.Proof.RefTail
import proofs.«160570_j2216203125394_1_alg».proof.Proof.LibTRefCasts
import Idealize.ShloMosaic.PureOps.Ideal

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable [Cert.ReferenceIdeal.Facts]

/-! ## The fold over each stretch, from any contents before it

Each operation's result read at its own buffer is its function of its operands' contents, at any other buffer what
was there; the transports along the buffers' types are identities at these literal buffers, and a transport into a
buffer's type followed by the one back out is the identity for any typed reference. In the gather's stretch the
reduction over the unit axis and the gather itself stay folded: both sides apply them to the same operands, and their
bodies (a fold and a search over the operand's elements) are never needed. -/

set_option maxRecDepth 4096 in
/-- The first stretch leaves the scaled query–key products of the arguments, the position table broadcast over the
    batch, and the two boolean tables; the arguments it reads later are untouched. -/
theorem dense_eq (X : Valuation τ sig (Elt Ideal)) :
    after (opsDense (F := Ideal)) X (main_v10 : DevRef τ sig)
        = refL (X (main_arg0 : DevRef τ sig)) (X (main_arg1 : DevRef τ sig)) (X (main_arg2 : DevRef τ sig)) (X (main_arg3 : DevRef τ sig)) (X (main_arg4 : DevRef τ sig))
    ∧ after (opsDense (F := Ideal)) X (main_v12 : DevRef τ sig)
        = broadcastInDim S1024x64x64 ![0, 1, 2] bcast_S1x64x64_S1024x64x64_0_1_2
            (broadcastInDim S1x64x64 ![1, 2] bcast_S64x64_S1x64x64_1_2 (fun i => lit0 (S64x64.rowMajor i)))
    ∧ after (opsDense (F := Ideal)) X (main_c_0 : DevRef τ sig) = (fun i => lit1 (S64x64.rowMajor i))
    ∧ after (opsDense (F := Ideal)) X (main_c_1 : DevRef τ sig) = (fun i => lit2 (S64.rowMajor i))
    ∧ after (opsDense (F := Ideal)) X (main_arg0 : DevRef τ sig) = (X (main_arg0 : DevRef τ sig))
    ∧ after (opsDense (F := Ideal)) X (main_arg5 : DevRef τ sig) = (X (main_arg5 : DevRef τ sig))
    ∧ after (opsDense (F := Ideal)) X (main_arg6 : DevRef τ sig) = (X (main_arg6 : DevRef τ sig)) := by
  refine ⟨?_, ?_, ?_, ?_, ?_, ?_, ?_⟩
  · after_results_simp; exact rfl
  · after_results_simp; exact rfl
  · after_results_simp; exact rfl
  · after_results_simp; exact rfl
  · after_results_simp
  · after_results_simp
  · after_results_simp

attribute [local irreducible] Host.reduce Host.gather in
set_option maxRecDepth 8192 in
set_option maxHeartbeats 1000000 in
/-- The second stretch is the gather along the last axis of the products by the broadcast positions. -/
theorem take_eq (X : Valuation τ sig (Elt Ideal)) :
    after (opsTake (F := Ideal)) X (main_v13 : DevRef τ sig) = takeAlong (X (main_v10 : DevRef τ sig)) (X (main_v12 : DevRef τ sig)) := by
  after_results_simp
  simp only [Cert.Lib.ofBuf_toBuf]
  unfold takeAlong
  exact rfl

/-- It touches neither the boolean tables nor the arguments read after it. -/
theorem take_pass (X : Valuation τ sig (Elt Ideal)) :
    after (opsTake (F := Ideal)) X (main_c_0 : DevRef τ sig) = (X (main_c_0 : DevRef τ sig))
    ∧ after (opsTake (F := Ideal)) X (main_c_1 : DevRef τ sig) = (X (main_c_1 : DevRef τ sig))
    ∧ after (opsTake (F := Ideal)) X (main_arg0 : DevRef τ sig) = (X (main_arg0 : DevRef τ sig))
    ∧ after (opsTake (F := Ideal)) X (main_arg5 : DevRef τ sig) = (X (main_arg5 : DevRef τ sig))
    ∧ after (opsTake (F := Ideal)) X (main_arg6 : DevRef τ sig) = (X (main_arg6 : DevRef τ sig)) := by
  refine ⟨?_, ?_, ?_, ?_, ?_⟩ <;> after_results_simp

set_option maxRecDepth 4096 in
/-- The third stretch: the gathered products kept where the first table is set, the under-promotion layer kept on
    the rows the second table marks, the literal -1e9 elsewhere. -/
theorem mask_eq (X : Valuation τ sig (Elt Ideal)) :
    after (opsMask (F := Ideal)) X (main_v15 : DevRef τ sig)
        = select
            (broadcastInDim S1024x64x64 ![0, 1, 2] bcast_S1x64x64_S1024x64x64_0_1_2
              (broadcastInDim S1x64x64 ![1, 2] bcast_S64x64_S1x64x64_1_2 (X (main_c_0 : DevRef τ sig))))
            (X (main_v13 : DevRef τ sig))
            (broadcastInDim S1024x64x64 ![] bcast_S_S1024x64x64 (constant (F := Ideal) S_ .f32 0xCE6E6B28#32))
    ∧ after (opsMask (F := Ideal)) X (main_v21 : DevRef τ sig)
        = select
            (broadcastInDim S1024x64x9 ![0, 1, 2] bcast_S1x64x1_S1024x64x9_0_1_2
              (broadcastInDim S1x64x1 ![1] bcast_S64_S1x64x1_1 (X (main_c_1 : DevRef τ sig))))
            (refU (X (main_arg0 : DevRef τ sig)) (X (main_arg5 : DevRef τ sig)) (X (main_arg6 : DevRef τ sig)))
            (broadcastInDim S1024x64x9 ![] bcast_S_S1024x64x9 (constant (F := Ideal) S_ .f32 0xCE6E6B28#32)) := by
  refine ⟨?_, ?_⟩
  · after_results_simp; exact rfl
  · after_results_simp; exact rfl

/-- The last stretch joins the two blocks along the last axis and flattens. -/
theorem join_eq (X : Valuation τ sig (Elt Ideal)) :
    after (opsJoin (F := Ideal)) X (main_v23 : DevRef τ sig)
      = shapeCast S1024x4672
          (concatenate S1024x64x73 2 [⟨S1024x64x64, (X (main_v15 : DevRef τ sig))⟩, ⟨S1024x64x9, (X (main_v21 : DevRef τ sig))⟩]
            concatenates_S1024x64x64_S1024x64x9_S1024x64x73_d2)
          shapeCasts_S1024x64x73_S1024x4672 := by
  after_results_simp
  exact rfl

/-! ## The fold at the result -/

/-- The fold at the result buffer is `tail` of the three tables and the dense layers of the arguments: the four
    stretches in order, each read from the contents the earlier ones leave; the composed term is `tail`'s body. -/
theorem out_eq (V : Valuation τ sig (Elt Ideal)) :
    after (ops (F := Ideal)) V (main_v23 : DevRef τ sig)
      = tail (fun i => lit0 (S64x64.rowMajor i)) (fun i => lit1 (S64x64.rowMajor i)) (fun i => lit2 (S64.rowMajor i))
          (refL (V (main_arg0 : DevRef τ sig)) (V (main_arg1 : DevRef τ sig)) (V (main_arg2 : DevRef τ sig)) (V (main_arg3 : DevRef τ sig)) (V (main_arg4 : DevRef τ sig)))
          (refU (V (main_arg0 : DevRef τ sig)) (V (main_arg5 : DevRef τ sig)) (V (main_arg6 : DevRef τ sig))) := by
  rw [ops_split, after_append, after_append, after_append, join_eq, (mask_eq _).1, (mask_eq _).2, take_eq,
    (take_pass _).1, (take_pass _).2.1, (take_pass _).2.2.1, (take_pass _).2.2.2.1, (take_pass _).2.2.2.2,
    (dense_eq _).1, (dense_eq _).2.1, (dense_eq _).2.2.1, (dense_eq _).2.2.2.1, (dense_eq _).2.2.2.2.1,
    (dense_eq _).2.2.2.2.2.1, (dense_eq _).2.2.2.2.2.2]
  rfl

/-! ## The run -/

/-- On every device, from any memory with zero counters: every weakly fair execution of @main terminates with the
    result buffer at `tail` of the three literal tables, the scaled query–key products `refL` and the under-promotion
    block `refU` of the arguments' launch contents, and the seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23)
        = tail (fun i => lit0 (S64x64.rowMajor i)) (fun i => lit1 (S64x64.rowMajor i)) (fun i => lit2 (S64.rowMajor i))
            (refL (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)))
            (refU (m ((c.tc : Thread nD τ).loc main_arg0)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      have ha := args_eq (F := Ideal) (launchContents m c)
      ⟨(h c main_v23).trans (out_eq (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2⟩)
    (run_main m ρ)

end Cert.ReferenceIdeal.Hand

end
-- ==== Proof.LibDot3.lean ====
/-
  Two rank-3 contractions read at an index.

  A dense layer over the last axis, `[B, S, K] × [K, N] → [B, S, N]`: the left operand's axis 2 is contracted with the
  right operand's axis 0 and there is no batch axis.  The contraction index is its one coordinate, and at output index
  `(b, s, p)` and contraction coordinate `k` the operand indices are `(b, s, k)` and `(k, p)`.

  A batched inner product of rows, `[B, S, P] × [B, T, P] → [B, S, T]`: axis 0 is a batch axis on both sides and the two
  last axes are contracted with each other.  At output index `(b, f, t)` and contraction coordinate `k` the operand
  indices are `(b, f, k)` and `(b, t, k)`.

  So at the extended reals the host's `dot_general` with either set of dimension numbers is a plain finite sum over
  `Fin K` (resp. `Fin P`) of products of the operands' entries.  The dimension numbers are taken as any record whose six
  lists are the stated ones, so that a record defined elsewhere with its own well-formedness evidence is covered.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-! ## `[B, S, K] × [K, N] → [B, S, N]` -/

/-- The dimension numbers of a dense layer over the last axis of a rank-3 array, from their well-formedness. -/
def dense3 (B S K N : Nat)
    (wf : DotDims.WF ⟨3, ![B, S, K]⟩ ⟨2, ![K, N]⟩ ⟨3, ![B, S, N]⟩ [2] [0] [0, 1] [1] [] []) :
    DotDims ⟨3, ![B, S, K]⟩ ⟨2, ![K, N]⟩ ⟨3, ![B, S, N]⟩ :=
  ⟨[2], [0], [0, 1], [1], [], [], wf⟩

/-- Its contraction sum, re-indexed by the contracted coordinate. -/
theorem dense3_contr_sum' {B S K N : Nat}
    (wf : DotDims.WF ⟨3, ![B, S, K]⟩ ⟨2, ![K, N]⟩ ⟨3, ![B, S, N]⟩ [2] [0] [0, 1] [1] [] [])
    (l : (⟨3, ![B, S, K]⟩ : Shape).Idx → EReal) (r : (⟨2, ![K, N]⟩ : Shape).Idx → EReal)
    (b : Fin B) (s : Fin S) (p : Fin N) :
    ∑ k : (dense3 B S K N wf).contr.Idx,
        l ((dense3 B S K N wf).lhsIdx (ix3 b s p) k) * r ((dense3 B S K N wf).rhsIdx (ix3 b s p) k)
      = ∑ k : Fin K, l (ix3 b s k) * r (ix2 k p) := by
  rw [← Equiv.sum_comp (contrEquiv1 (dense3 B S K N wf) K rfl rfl).symm]
  refine Finset.sum_congr rfl fun k _ => ?_
  have hl : (dense3 B S K N wf).lhsIdx (ix3 b s p) ((contrEquiv1 (dense3 B S K N wf) K rfl rfl).symm k) = ix3 b s k := by
    funext a
    refine Fin.ext ?_
    match a with
    | ⟨0, _⟩ => rfl
    | ⟨1, _⟩ => rfl
    | ⟨2, _⟩ =>
      refine ((dense3 B S K N wf).lhsIdx_val_of_single (cl := (2 : Fin 3)) rfl (ix3 b s p) _).trans ?_
      exact contrEquiv1_symm_val (dense3 B S K N wf) K rfl rfl k
  have hr : (dense3 B S K N wf).rhsIdx (ix3 b s p) ((contrEquiv1 (dense3 B S K N wf) K rfl rfl).symm k) = ix2 k p := by
    funext a
    refine Fin.ext ?_
    match a with
    | ⟨0, _⟩ =>
      refine ((dense3 B S K N wf).rhsIdx_val_of_single (cr := (0 : Fin 2)) rfl (ix3 b s p) _).trans ?_
      exact contrEquiv1_symm_val (dense3 B S K N wf) K rfl rfl k
    | ⟨1, _⟩ => rfl
  rw [hl, hr]

/-- The same for any record with those six lists. -/
theorem dense3_contr_sum {B S K N : Nat} (D : DotDims ⟨3, ![B, S, K]⟩ ⟨2, ![K, N]⟩ ⟨3, ![B, S, N]⟩)
    (hlc : D.lhsContracting = [2]) (hrc : D.rhsContracting = [0]) (hln : D.lhsNonContracting = [0, 1])
    (hrn : D.rhsNonContracting = [1]) (hlb : D.lhsBatch = []) (hrb : D.rhsBatch = [])
    (l : (⟨3, ![B, S, K]⟩ : Shape).Idx → EReal) (r : (⟨2, ![K, N]⟩ : Shape).Idx → EReal)
    (b : Fin B) (s : Fin S) (p : Fin N) :
    ∑ k : D.contr.Idx, l (D.lhsIdx (ix3 b s p) k) * r (D.rhsIdx (ix3 b s p) k)
      = ∑ k : Fin K, l (ix3 b s k) * r (ix2 k p) := by
  obtain ⟨lc, rc, ln, rn, lb, rb, wf⟩ := D
  simp only at hlc hrc hln hrn hlb hrb
  subst hlc hrc hln hrn hlb hrb
  exact dense3_contr_sum' wf l r b s p

/-- The host's `dot_general` of a dense layer over the last axis, at an index, over the extended reals. -/
theorem dotGeneral_dense3_apply {B S K N : Nat} {φ₁ φ₂ : FTy} (D : DotDims ⟨3, ![B, S, K]⟩ ⟨2, ![K, N]⟩ ⟨3, ![B, S, N]⟩)
    (hlc : D.lhsContracting = [2]) (hrc : D.rhsContracting = [0]) (hln : D.lhsNonContracting = [0, 1])
    (hrn : D.rhsNonContracting = [1]) (hlb : D.lhsBatch = []) (hrb : D.rhsBatch = [])
    (prec : Option ContractPrecision) (sched : HostSchedule)
    (l : FVec Ideal ⟨3, ![B, S, K]⟩ φ₁) (r : FVec Ideal ⟨2, ![K, N]⟩ φ₂) (b : Fin B) (s : Fin S) (p : Fin N) :
    FloatOps.dotGeneral D prec sched l r (ix3 b s p) = ∑ k : Fin K, l (ix3 b s k) * r (ix2 k p) :=
  (Ideal.dotGeneral_apply D prec sched l r (ix3 b s p)).trans (dense3_contr_sum D hlc hrc hln hrn hlb hrb l r b s p)

/-! ## `[B, S, P] × [B, T, P] → [B, S, T]` -/

/-- The dimension numbers of a batched inner product of rows, from their well-formedness. -/
def rows3 (B S T P : Nat)
    (wf : DotDims.WF ⟨3, ![B, S, P]⟩ ⟨3, ![B, T, P]⟩ ⟨3, ![B, S, T]⟩ [2] [2] [1] [1] [0] [0]) :
    DotDims ⟨3, ![B, S, P]⟩ ⟨3, ![B, T, P]⟩ ⟨3, ![B, S, T]⟩ :=
  ⟨[2], [2], [1], [1], [0], [0], wf⟩

/-- Its contraction sum, re-indexed by the contracted coordinate. -/
theorem rows3_contr_sum' {B S T P : Nat}
    (wf : DotDims.WF ⟨3, ![B, S, P]⟩ ⟨3, ![B, T, P]⟩ ⟨3, ![B, S, T]⟩ [2] [2] [1] [1] [0] [0])
    (l : (⟨3, ![B, S, P]⟩ : Shape).Idx → EReal) (r : (⟨3, ![B, T, P]⟩ : Shape).Idx → EReal)
    (b : Fin B) (f : Fin S) (t : Fin T) :
    ∑ k : (rows3 B S T P wf).contr.Idx,
        l ((rows3 B S T P wf).lhsIdx (ix3 b f t) k) * r ((rows3 B S T P wf).rhsIdx (ix3 b f t) k)
      = ∑ k : Fin P, l (ix3 b f k) * r (ix3 b t k) := by
  rw [← Equiv.sum_comp (contrEquiv1 (rows3 B S T P wf) P rfl rfl).symm]
  refine Finset.sum_congr rfl fun k _ => ?_
  have hl : (rows3 B S T P wf).lhsIdx (ix3 b f t) ((contrEquiv1 (rows3 B S T P wf) P rfl rfl).symm k) = ix3 b f k := by
    funext a
    refine Fin.ext ?_
    match a with
    | ⟨0, _⟩ => rfl
    | ⟨1, _⟩ => rfl
    | ⟨2, _⟩ =>
      refine ((rows3 B S T P wf).lhsIdx_val_of_single (cl := (2 : Fin 3)) rfl (ix3 b f t) _).trans ?_
      exact contrEquiv1_symm_val (rows3 B S T P wf) P rfl rfl k
  have hr : (rows3 B S T P wf).rhsIdx (ix3 b f t) ((contrEquiv1 (rows3 B S T P wf) P rfl rfl).symm k) = ix3 b t k := by
    funext a
    refine Fin.ext ?_
    match a with
    | ⟨0, _⟩ => rfl
    | ⟨1, _⟩ => rfl
    | ⟨2, _⟩ =>
      refine ((rows3 B S T P wf).rhsIdx_val_of_single (cr := (2 : Fin 3)) rfl (ix3 b f t) _).trans ?_
      exact contrEquiv1_symm_val (rows3 B S T P wf) P rfl rfl k
  rw [hl, hr]

/-- The same for any record with those six lists. -/
theorem rows3_contr_sum {B S T P : Nat} (D : DotDims ⟨3, ![B, S, P]⟩ ⟨3, ![B, T, P]⟩ ⟨3, ![B, S, T]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, S, P]⟩ : Shape).Idx → EReal) (r : (⟨3, ![B, T, P]⟩ : Shape).Idx → EReal)
    (b : Fin B) (f : Fin S) (t : Fin T) :
    ∑ k : D.contr.Idx, l (D.lhsIdx (ix3 b f t) k) * r (D.rhsIdx (ix3 b f t) k)
      = ∑ k : Fin P, l (ix3 b f k) * r (ix3 b t k) := by
  obtain ⟨lc, rc, ln, rn, lb, rb, wf⟩ := D
  simp only at hlc hrc hln hrn hlb hrb
  subst hlc hrc hln hrn hlb hrb
  exact rows3_contr_sum' wf l r b f t

/-- The host's `dot_general` of a batched inner product of rows, at an index, over the extended reals. -/
theorem dotGeneral_rows3_apply {B S T P : Nat} {φ₁ φ₂ : FTy} (D : DotDims ⟨3, ![B, S, P]⟩ ⟨3, ![B, T, P]⟩ ⟨3, ![B, S, T]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule)
    (l : FVec Ideal ⟨3, ![B, S, P]⟩ φ₁) (r : FVec Ideal ⟨3, ![B, T, P]⟩ φ₂) (b : Fin B) (f : Fin S) (t : Fin T) :
    FloatOps.dotGeneral D prec sched l r (ix3 b f t) = ∑ k : Fin P, l (ix3 b f k) * r (ix3 b t k) :=
  (Ideal.dotGeneral_apply D prec sched l r (ix3 b f t)).trans (rows3_contr_sum D hlc hrc hln hrn hlb hrb l r b f t)

/-! ## A bias vector broadcast over the two leading axes -/

/-- `[N] → [1, 1, N] → [B, S, N]` by two `broadcast_in_dim`s (the vector onto the last axis, then the unit axes
    stretched), read at `(b, s, p)`: the vector's entry `p`. -/
theorem bias3_apply {α : Type} {B S N : Nat}
    (h₁ : (⟨1, ![N]⟩ : Shape).BroadcastsInDim ⟨3, ![1, 1, N]⟩ (![2] : Fin 1 → Fin 3))
    (h₂ : (⟨3, ![1, 1, N]⟩ : Shape).BroadcastsInDim ⟨3, ![B, S, N]⟩ (![0, 1, 2] : Fin 3 → Fin 3))
    (β : (⟨1, ![N]⟩ : Shape).Idx → α) (b : Fin B) (s : Fin S) (p : Fin N) :
    broadcastInDim ⟨3, ![B, S, N]⟩ ![0, 1, 2] h₂ (broadcastInDim ⟨3, ![1, 1, N]⟩ ![2] h₁ β) (ix3 b s p) = β (ix1 p) := by
  by_cases hN : N = 1
  · subst hN
    refine (broadcastInDim_apply _ h₂ _ (ix3 b s p) (ix3 (0 : Fin 1) (0 : Fin 1) (0 : Fin 1)) fun a => ?_).trans ?_
    · match a with
      | ⟨0, _⟩ => rfl
      | ⟨1, _⟩ => rfl
      | ⟨2, _⟩ => rfl
    · refine (broadcastInDim_apply _ h₁ β _ (ix1 (0 : Fin 1)) fun a => ?_).trans ?_
      · match a with
        | ⟨0, _⟩ => rfl
      · exact congrArg β (congrArg ix1 (Subsingleton.elim _ _))
  · refine (broadcastInDim_apply _ h₂ _ (ix3 b s p) (ix3 (0 : Fin 1) (0 : Fin 1) p) fun a => ?_).trans ?_
    · match a with
      | ⟨0, _⟩ => rfl
      | ⟨1, _⟩ => rfl
      | ⟨2, _⟩ => exact (if_neg hN).symm
    · refine broadcastInDim_apply _ h₁ β _ (ix1 p) fun a => ?_
      match a with
      | ⟨0, _⟩ => exact (if_neg hN).symm

end Cert.Lib

end
-- ==== Proof.RefValue.lean ====
/-
  The reference's logits and under-promotion arrays read index by index.

  The reference computes each dense layer as a contraction of the embedding axis followed by a bias vector broadcast
  over batch entries and squares, so at index (b, s, p) a layer is (Σ_d x[b,s,d] · W[d,p]) + β[p]: the entry `proj` of the
  shared specification.  Its logits are the batched contraction of the query rows with the key rows over the 128
  columns, multiplied entrywise by the scale literal broadcast from a rank-0 array, so at (b, f, t) they are
  (Σ_p q[b,f,p] · k[b,t,p]) · scale: the entry `logit`.  Over the extended reals every operation is the textbook one, so
  only the definitions of sum and product and the re-indexing of the finite contraction sums are used; no entry needs
  to be finite, and the scale literal is never evaluated.
-/
import proofs.«160570_j2216203125394_1_alg».proof.Proof.Spec
import proofs.«160570_j2216203125394_1_alg».proof.Proof.RefTerms
import proofs.«160570_j2216203125394_1_alg».proof.Proof.LibDot3
import Idealize.ShloMosaic.PureOps.Ideal.Laws
import Idealize.ShloMosaic.Lib.ValueIdx
import Idealize.ShloMosaic.Lib.ValueLayout
import Idealize.ShloMosaic.Lib.IdealHost

noncomputable section

namespace Cert.ReferenceIdeal.Hand

open Idealize.ShloMosaic Idealize.ShloMosaic.ValueIdx Cert.ReferenceIdeal Cert.ReferenceIdeal.Facts₀

variable [Cert.ReferenceIdeal.Facts]

/-- A 128-column dense layer of the reference at (b, s, p): the contraction over the embedding axis plus the bias. -/
theorem refQ_apply (x : FVec Ideal S1024x64x1024 .f32) (W : FVec Ideal S1024x128 .f32) (β : FVec Ideal S128 .f32)
    (b : Fin 1024) (s : Fin 64) (p : Fin 128) :
    refQ x W β (ix3 b s p) = Cert.Spec.proj x W β b s p := by
  unfold refQ Cert.Spec.proj
  rw [addf_apply]
  refine congrArg₂ (· + ·) ?_ ?_
  · exact Cert.Lib.dotGeneral_dense3_apply _ rfl rfl rfl rfl rfl rfl none .single x W b s p
  · exact Cert.Lib.bias3_apply _ _ β b s p

/-- The 9-column under-promotion layer of the reference at (b, s, n). -/
theorem refU_apply (x : FVec Ideal S1024x64x1024 .f32) (Wu : FVec Ideal S1024x9 .f32) (bu : FVec Ideal S9 .f32)
    (b : Fin 1024) (s : Fin 64) (n : Fin 9) :
    refU x Wu bu (ix3 b s n) = Cert.Spec.proj x Wu bu b s n := by
  unfold refU Cert.Spec.proj
  rw [addf_apply]
  refine congrArg₂ (· + ·) ?_ ?_
  · exact Cert.Lib.dotGeneral_dense3_apply _ rfl rfl rfl rfl rfl rfl none .single x Wu b s n
  · exact Cert.Lib.bias3_apply _ _ bu b s n

/-- The reference's logits at (b, f, t): the inner product of query row f and key row t of batch entry b, times the
    scale literal. -/
theorem refL_apply (x : FVec Ideal S1024x64x1024 .f32) (Wq : FVec Ideal S1024x128 .f32) (bq : FVec Ideal S128 .f32)
    (Wk : FVec Ideal S1024x128 .f32) (bk : FVec Ideal S128 .f32) (b : Fin 1024) (f t : Fin 64) :
    refL x Wq bq Wk bk (ix3 b f t) = Cert.Spec.logit x Wq bq Wk bk b f t := by
  unfold refL Cert.Spec.logit
  rw [mulf_apply]
  refine congrArg₂ (· * ·) ?_ ?_
  · refine (Cert.Lib.dotGeneral_rows3_apply _ rfl rfl rfl rfl rfl rfl none .single (refQ x Wq bq) (refQ x Wk bk)
      b f t).trans ?_
    exact Finset.sum_congr rfl fun p _ => by rw [refQ_apply, refQ_apply]
  · refine (broadcastInDim_scalar_apply _ _ _).trans ?_
    exact constant_apply _ _

/-- The reference's logits are the specification's. -/
theorem refL_eq (x : FVec Ideal S1024x64x1024 .f32) (Wq : FVec Ideal S1024x128 .f32) (bq : FVec Ideal S128 .f32)
    (Wk : FVec Ideal S1024x128 .f32) (bk : FVec Ideal S128 .f32) :
    refL x Wq bq Wk bk = Cert.Spec.logits x Wq bq Wk bk := by
  funext i
  obtain ⟨b, f, t, rfl⟩ : ∃ (b : Fin 1024) (f : Fin 64) (t : Fin 64), i = ix3 b f t := ⟨i 0, i 1, i 2, eq_ix3 i⟩
  rw [Cert.Spec.logits_apply]
  exact refL_apply x Wq bq Wk bk b f t

/-- The reference's under-promotion entries are the specification's. -/
theorem refU_eq (x : FVec Ideal S1024x64x1024 .f32) (Wu : FVec Ideal S1024x9 .f32) (bu : FVec Ideal S9 .f32) :
    refU x Wu bu = Cert.Spec.ups x Wu bu := by
  funext i
  obtain ⟨b, s, n, rfl⟩ : ∃ (b : Fin 1024) (s : Fin 64) (n : Fin 9), i = ix3 b s n := ⟨i 0, i 1, i 2, eq_ix3 i⟩
  rw [Cert.Spec.ups_apply]
  exact refU_apply x Wu bu b s n

end Cert.ReferenceIdeal.Hand

end
-- ==== Proof.LitEq.lean ====
/-
  The kernel program and the reference each carry their own printed copy of three constant tables: a 64 × 64 table of
  32-bit integers and a 64 × 64 table of one-bit flags (4096 entries each, row-major), and a vector of 64 one-bit flags.
  The two copies of each table list the same entries in the same order, so they are the same function of the index.
-/
import proofs.«160570_j2216203125394_1_alg».proof.KernelIdeal
import proofs.«160570_j2216203125394_1_alg».proof.ReferenceIdeal

namespace Cert.Join

/-- The two copies of the 4096-entry integer table agree entry by entry. -/
theorem lit0_eq : Cert.KernelIdeal.lit0 = Cert.ReferenceIdeal.lit0 := rfl

/-- The two copies of the 4096-entry flag table agree entry by entry. -/
theorem lit1_eq : Cert.KernelIdeal.lit1 = Cert.ReferenceIdeal.lit1 := rfl

/-- The two copies of the 64-entry flag vector agree entry by entry. -/
theorem lit2_eq : Cert.KernelIdeal.lit2 = Cert.ReferenceIdeal.lit2 := rfl

end Cert.Join
-- ==== Proof.Join.lean ====
/-
  The two programs apply the same function to their logits and under-promotion entries: the lines after the logits
  are the same composition of the same operations in both, over equal shapes and equal side conditions.
-/
import proofs.«160570_j2216203125394_1_alg».proof.Proof.KTail
import proofs.«160570_j2216203125394_1_alg».proof.Proof.RefTail
import proofs.«160570_j2216203125394_1_alg».proof.Proof.LitEq
import proofs.«160570_j2216203125394_1_alg».proof.Proof.Gen.ReferenceIdeal

noncomputable section

namespace Cert.Join

open Idealize.ShloMosaic

/-- The gather step is the same function in both programs. -/
theorem takeAlong_eq (L : FVec Ideal Cert.KernelIdeal.S1024x64x64 .f32) (idx : IVec Cert.KernelIdeal.S1024x64x64 32) :
    Cert.KernelIdeal.Hand.takeAlong L idx = Cert.ReferenceIdeal.Hand.takeAlong L idx := rfl

/-- The lines after the logits are the same function in both programs. -/
theorem tail_eq (t0 : IVec Cert.KernelIdeal.S64x64 32) (t1 : IVec Cert.KernelIdeal.S64x64 1) (t2 : IVec Cert.KernelIdeal.S64 1)
    (L : FVec Ideal Cert.KernelIdeal.S1024x64x64 .f32) (U : FVec Ideal Cert.KernelIdeal.S1024x64x9 .f32) :
    Cert.KernelIdeal.Hand.tail t0 t1 t2 L U = Cert.ReferenceIdeal.Hand.tail t0 t1 t2 L U := rfl

end Cert.Join

end
-- ==== Proof.lean ====
/-
  The certificate of the projection-and-attention kernel against its jnp reference, over the extended reals.

  Both programs compute, from an input x of 1024 batch entries × 64 squares × 1024 features, three dense layers
  (queries q = x·Wq + bq and keys k = x·Wk + bk of 128 columns, under-promotion entries u = x·Wu + bu of 9 columns),
  the scaled inner products of every query row with every key row of the same batch entry, and then one and the same
  chain of host operations: a gather of the inner products along the to-square table, two maskings by constant
  tables, a join and a final layout.  The kernel computes all three layers by ONE matrix product against the three
  weight matrices laid side by side (the third padded with zero columns), 32 batch entries per grid point, rounding
  its operands to bf16 on the way into the matrix unit; at the ideal instance a change of float format is the identity
  and a product into a zero accumulator is the plain sum, so column c of the joint product is column c of its own
  layer, and the two programs hand equal arrays to the shared chain.  No law of the extended reals beyond the
  definitions of sum and product is used, so the precondition (finite inputs) is never opened.

  The frames: each program runs to its end without fault and leaves its seven argument arrays as launched — for the
  two kernel programs by the launch theorem of the pipeline library over the body's triple (one symbolic run of the
  body at a generic grid point), for the reference by the run of its straight line of host operations.
-/
import proofs.«160570_j2216203125394_1_alg».proof.Defs
import proofs.«160570_j2216203125394_1_alg».proof.Proof.KFrameB
import proofs.«160570_j2216203125394_1_alg».proof.Proof.KRun
import proofs.«160570_j2216203125394_1_alg».proof.Proof.RefRun
import proofs.«160570_j2216203125394_1_alg».proof.Proof.RefValue
import proofs.«160570_j2216203125394_1_alg».proof.Proof.Join
import proofs.«160570_j2216203125394_1_alg».proof.Proof.Gen.Pre_finite_inputs

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run (Cert.ReferenceIdeal.defs (F := Ideal)) _ _).mono (fun _ h c => (h c).2) (Cert.ReferenceIdeal.Hand.run m ρ)

/-- The ideal pass rewrote nothing. -/
theorem preserves : Cert.preserves_Kernel_KernelIdeal := trivial

/-- Both runs end with the shared chain applied to the specification's logits and under-promotion entries of the
    (agreeing) argument arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run (Cert.ReferenceIdeal.defs (F := Ideal)) _ _).mono (fun _ h c => ⟨(h c).1.trans ?_, (h c).2⟩)
    (Cert.ReferenceIdeal.Hand.run m' ρ')
  obtain ⟨e0, e1, e2, e3, e4, e5, e6⟩ := hagree c
  rw [e0, e1, e2, e3, e4, e5, e6, Cert.ReferenceIdeal.Hand.refL_eq, Cert.ReferenceIdeal.Hand.refU_eq]
  refine Eq.trans ?_ (Cert.Join.tail_eq _ _ _ _ _).symm
  rw [Cert.Join.lit0_eq, Cert.Join.lit1_eq, Cert.Join.lit2_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
